-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1200000 : Shape := ⟨2, ![2, 1200000]⟩
abbrev S1x64 : Shape := ⟨2, ![1, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x1 .f32) (main_arg1 : IVec S2x1200000 32) (main_arg2 : FVec F S1x64 .f32) (main_arg3 : FVec F S64 .f32) (main_arg4 : FVec F S64x1 .f32) (main_arg5 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S100000x1 : Shape := ⟨2, ![100000, 1]⟩
abbrev S2x1200000 : Shape := ⟨2, ![2, 1200000]⟩
abbrev S1x64 : Shape := ⟨2, ![1, 64]⟩
abbrev S64 : Shape := ⟨1, ![64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S100352 : Shape := ⟨1, ![100352]⟩
abbrev S1x100352 : Shape := ⟨2, ![1, 100352]⟩
abbrev S1x12544 : Shape := ⟨2, ![1, 12544]⟩
abbrev S64x12544 : Shape := ⟨2, ![64, 12544]⟩

abbrev nBuf : Space → Nat
  | .hbm => 88
  | .vmem => 7
  | .smem => 0
  | _ => 0

abbrev bufTy : (tb : Table) → Fin (tcTables nBuf tb) → BufTy
  | .hbm, ⟨0, _⟩ => ⟨S100000x1, .f32⟩
  | .hbm, ⟨1, _⟩ => ⟨S2x1200000, .i32⟩
  | .hbm, ⟨2, _⟩ => ⟨S1x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x1200000, .i32⟩
  | .hbm, ⟨7, _⟩ => ⟨S1200000, .i32⟩
  | .hbm, ⟨8, _⟩ => ⟨S1x1200000, .i32⟩
  | .hbm, ⟨9, _⟩ => ⟨S1200000, .i32⟩
  | .hbm, ⟨10, _⟩ => ⟨S100000, .i32⟩
  | .hbm, ⟨11, _⟩ => ⟨S1300000, .i32⟩
  | .hbm, ⟨12, _⟩ => ⟨S1300000, .i32⟩
  | .hbm, ⟨13, _⟩ => ⟨S_, .f32⟩
  | .hbm, ⟨14, _⟩ => ⟨S1300000, .f32⟩
  | .hbm, ⟨15, _⟩ => ⟨S_, .f32⟩
  | .hbm, ⟨16, _⟩ => ⟨S100000, .f32⟩
  | .hbm, ⟨17, _⟩ => ⟨S1300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1300000, .i32⟩
  | .hbm, ⟨29, _⟩ => ⟨S1300000, .i1⟩
  | .hbm, ⟨30, _⟩ => ⟨S_, .i32⟩
  | .hbm, ⟨31, _⟩ => ⟨S1300000, .i32⟩
  | .hbm, ⟨32, _⟩ => ⟨S1300000, .i32⟩
  | .hbm, ⟨33, _⟩ => ⟨S1300000, .i32⟩
  | .hbm, ⟨34, _⟩ => ⟨S1300000x1, .i32⟩
  | .hbm, ⟨35, _⟩ => ⟨S1300000, .f32⟩
  | .hbm, ⟨36, _⟩ => ⟨S_, .i32⟩
  | .hbm, ⟨37, _⟩ => ⟨S1300000, .i32⟩
  | .hbm, ⟨38, _⟩ => ⟨S1300000, .i1⟩
  | .hbm, ⟨39, _⟩ => ⟨S_, .i32⟩
  | .hbm, ⟨40, _⟩ => ⟨S1300000, .i32⟩
  | .hbm, ⟨41, _⟩ => ⟨S1300000, .i32⟩
  | .hbm, ⟨42, _⟩ => ⟨S1300000, .i32⟩
  | .hbm, ⟨43, _⟩ => ⟨S1300000x1, .i32⟩
  | .hbm, ⟨44, _⟩ => ⟨S1300000, .f32⟩
  | .hbm, ⟨45, _⟩ => ⟨S1300000, .f32⟩
  | .hbm, ⟨46, _⟩ => ⟨S100000, .f32⟩
  | .hbm, ⟨47, _⟩ => ⟨S_, .i32⟩
  | .hbm, ⟨48, _⟩ => ⟨S1300000, .i32⟩
  | .hbm, ⟨49, _⟩ => ⟨S1300000, .i1⟩
  | .hbm, ⟨50, _⟩ => ⟨S_, .i32⟩
  | .hbm, ⟨51, _⟩ => ⟨S1300000, .i32⟩
  | .hbm, ⟨52, _⟩ => ⟨S1300000, .i32⟩
  | .hbm, ⟨53, _⟩ => ⟨S1300000, .i32⟩
  | .hbm, ⟨54, _⟩ => ⟨S1300000x1, .i32⟩
  | .hbm, ⟨55, _⟩ => ⟨S1300000, .f32⟩
  | .hbm, ⟨56, _⟩ => ⟨S1300000, .f32⟩
  | .hbm, ⟨57, _⟩ => ⟨S_, .f32⟩
  | .hbm, ⟨58, _⟩ => ⟨S100000, .f32⟩
  | .hbm, ⟨59, _⟩ => ⟨S1300000x1, .i32⟩
  | .hbm, ⟨60, _⟩ => ⟨S100000, .f32⟩
  | .hbm, ⟨61, _⟩ => ⟨S_, .i32⟩
  | .hbm, ⟨62, _⟩ => ⟨S_, .f32⟩
  | .hbm, ⟨63, _⟩ => ⟨S100352, .f32⟩
  | .hbm, ⟨64, _⟩ => ⟨S1x100352, .f32⟩
  | .hbm, ⟨65, _⟩ => ⟨S64x1, .f32⟩
  | .hbm, ⟨66, _⟩ => ⟨S64x1, .f32⟩
  | .hbm, ⟨67, _⟩ => ⟨S1x64, .f32⟩
  | .hbm, ⟨68, _⟩ => ⟨S1x100352, .f32⟩
  | .hbm, ⟨69, _⟩ => ⟨S100352, .f32⟩
  | .hbm, ⟨70, _⟩ => ⟨S100000, .f32⟩
  | .hbm, ⟨71, _⟩ => ⟨S_, .i32⟩
  | .hbm, ⟨72, _⟩ => ⟨S1300000, .i32⟩
  | .hbm, ⟨73, _⟩ => ⟨S1300000, .i1⟩
  | .hbm, ⟨74, _⟩ => ⟨S_, .i32⟩
  | .hbm, ⟨75, _⟩ => ⟨S1300000, .i32⟩
  | .hbm, ⟨76, _⟩ => ⟨S1300000, .i32⟩
  | .hbm, ⟨77, _⟩ => ⟨S1300000, .i32⟩
  | .hbm, ⟨78, _⟩ => ⟨S1300000x1, .i32⟩
  | .hbm, ⟨79, _⟩ => ⟨S1300000, .f32⟩
  | .hbm, ⟨80, _⟩ => ⟨S1300000, .f32⟩
  | .hbm, ⟨81, _⟩ => ⟨S_, .f32⟩
  | .hbm, ⟨82, _⟩ => ⟨S100000, .f32⟩
  | .hbm, ⟨83, _⟩ => ⟨S1300000x1, .i32⟩
  | .hbm, ⟨84, _⟩ => ⟨S100000, .f32⟩
  | .hbm, ⟨85, _⟩ => ⟨S100000, .f32⟩
  | .hbm, ⟨86, _⟩ => ⟨S100000, .f32⟩
  | .hbm, ⟨87, _⟩ => ⟨S100000x1, .f32⟩
  | .local _ .vmem, ⟨0, _⟩ => ⟨S1x12544, .f32⟩
  | .local _ .vmem, ⟨1, _⟩ => ⟨S1x12544, .f32⟩
  | .local _ .vmem, ⟨2, _⟩ => ⟨S64x1, .f32⟩
  | .local _ .vmem, ⟨3, _⟩ => ⟨S64x1, .f32⟩
  | .local _ .vmem, ⟨4, _⟩ => ⟨S1x64, .f32⟩
  | .local _ .vmem, ⟨5, _⟩ => ⟨S1x12544, .f32⟩
  | .local _ .vmem, ⟨6, _⟩ => ⟨S1x12544, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_call1_v0 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x12544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  shapeCasts_S100000x1_S100000 : S100000x1.ShapeCasts S100000
  pads_S100000_S100352_03520 : S100000.Pads (![0] : Fin 1 → Nat) ![352] ![0] S100352
  h_S_ : 0 < S_.numel
  shapeCasts_S100352_S1x100352 : S100352.ShapeCasts S1x100352
  shapeCasts_S1x64_S64x1 : S1x64.ShapeCasts S64x1
  shapeCasts_S64_S64x1 : S64.ShapeCasts S64x1
  shapeCasts_S64x1_S1x64 : S64x1.ShapeCasts S1x64
  inb_S1x12544_S1x12544_0_0 : ∀ a, (![0, 0] : Fin 2 → Nat) a + S1x12544.size a ≤ S1x12544.size a
  h_S1x12544 : 0 < S1x12544.numel
  shapeCasts_S1x12544_S1x12544 : S1x12544.ShapeCasts S1x12544
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S64x1_S64x12544 : S64x1.Broadcasts S64x12544
  broadcasts_S1x12544_S64x12544 : S1x12544.Broadcasts S64x12544
  bitsLt_bf16_f32 : FTy.bits .bf16 < FTy.bits .f32
  shapeCasts_S1x100352_S100352 : S1x100352.ShapeCasts S100352
  slices_S100352_S100000_0 : S100352.Slices ![0] S100000
  bcast_S1_S100000_0 : S1.BroadcastsInDim S100000 (![0] : Fin 1 → Fin S100000.rank)
  shapeCasts_S100000_S100000x1 : S100000.ShapeCasts S100000x1
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S1x64_S64x12544_S1x12544_1_0_0_1_n_n_wf : DotDims.WF S1x64 S64x12544 S1x12544 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12544.size a ≤ S1x100352.size a
  hwx0_0 : ∀ i : grid0.Coords, EltTy.bits .f32 = 32 ∨ (Rect.block (s := S1x100352) S1x12544.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x12544.size a ≤ S1x100352.size a
  hwx0_4 : ∀ i : grid0.Coords, EltTy.bits .f32 = 32 ∨ (Rect.block (s := S1x100352) S1x12544.size (cc0_transform_4 i) (hinb0_4 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S1x64_S64x12544_S1x12544_1_0_0_1_n_n : DotDims S1x64 S64x12544 S1x12544 where
  lhsContracting := [1]
  rhsContracting := [0]
  lhsNonContracting := [0]
  rhsNonContracting := [1]
  lhsBatch := []
  rhsBatch := []
  wf := dot_S1x64_S64x12544_S1x12544_1_0_0_1_n_n_wf

abbrev win0_0 : Pipeline.Window sig grid0 :=
  Pipeline.Window.ofSpec (Memref.whole main_v43) S1x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S64x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v47) S1x12544.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x1 : Shape := ⟨2, ![100000, 1]⟩
abbrev S2x1200000 : Shape := ⟨2, ![2, 1200000]⟩
abbrev S1x64 : Shape := ⟨2, ![1, 64]⟩
abbrev S64 : Shape := ⟨1, ![64]⟩
abbrev S64x1 : Shape := ⟨2, ![64, 1]⟩
abbrev S1 : Shape := ⟨1, ![1]⟩
abbrev S100000x64 : Shape := ⟨2, ![100000, 64]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S100000x1, .f32⟩
  | 1 => ⟨S2x1200000, .i32⟩
  | 2 => ⟨S1x64, .f32⟩
  | 3 => ⟨S64, .f32⟩
  | 4 => ⟨S64x1, .f32⟩
  | 5 => ⟨S1, .f32⟩
  | 6 => ⟨S100000x64, .f32⟩
  | 7 => ⟨S1x1200000, .i32⟩
  | 8 => ⟨S1200000, .i32⟩
  | 9 => ⟨S100000, .i32⟩
  | 10 => ⟨S1300000, .i32⟩
  | 11 => ⟨S1x1200000, .i32⟩
  | 12 => ⟨S1200000, .i32⟩
  | 13 => ⟨S100000, .i32⟩
  | 14 => ⟨S1300000, .i32⟩
  | 15 => ⟨S_, .f32⟩
  | 16 => ⟨S1300000, .f32⟩
  | 17 => ⟨S_, .f32⟩
  | 18 => ⟨S100000, .f32⟩
  | 19 => ⟨S1300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1300000, .i32⟩
  | 31 => ⟨S1300000, .i1⟩
  | 32 => ⟨S_, .i32⟩
  | 33 => ⟨S1300000, .i32⟩
  | 34 => ⟨S1300000, .i32⟩
  | 35 => ⟨S1300000, .i32⟩
  | 36 => ⟨S1300000x1, .i32⟩
  | 37 => ⟨S1300000, .f32⟩
  | 38 => ⟨S_, .i32⟩
  | 39 => ⟨S1300000, .i32⟩
  | 40 => ⟨S1300000, .i1⟩
  | 41 => ⟨S_, .i32⟩
  | 42 => ⟨S1300000, .i32⟩
  | 43 => ⟨S1300000, .i32⟩
  | 44 => ⟨S1300000, .i32⟩
  | 45 => ⟨S1300000x1, .i32⟩
  | 46 => ⟨S1300000, .f32⟩
  | 47 => ⟨S1300000, .f32⟩
  | 48 => ⟨S_, .i32⟩
  | 49 => ⟨S1300000, .i32⟩
  | 50 => ⟨S1300000, .i1⟩
  | 51 => ⟨S_, .i32⟩
  | 52 => ⟨S1300000, .i32⟩
  | 53 => ⟨S1300000, .i32⟩
  | 54 => ⟨S1300000, .i32⟩
  | 55 => ⟨S1300000x1, .i32⟩
  | 56 => ⟨S1300000x64, .f32⟩
  | 57 => ⟨S1300000x1, .f32⟩
  | 58 => ⟨S1300000x64, .f32⟩
  | 59 => ⟨S1300000x64, .f32⟩
  | 60 => ⟨S_, .f32⟩
  | 61 => ⟨S100000x64, .f32⟩
  | 62 => ⟨S1300000x1, .i32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x1, .f32⟩
  | 71 => ⟨S1x1200000, .i32⟩
  | 72 => ⟨S1200000, .i32⟩
  | 73 => ⟨S100000, .i32⟩
  | 74 => ⟨S1300000, .i32⟩
  | 75 => ⟨S1x1200000, .i32⟩
  | 76 => ⟨S1200000, .i32⟩
  | 77 => ⟨S100000, .i32⟩
  | 78 => ⟨S1300000, .i32⟩
  | 79 => ⟨S_, .f32⟩
  | 80 => ⟨S1300000, .f32⟩
  | 81 => ⟨S_, .f32⟩
  | 82 => ⟨S100000, .f32⟩
  | 83 => ⟨S1300000x1, .i32⟩
  | 84 => ⟨S100000, .f32⟩
  | 85 => ⟨S_, .f32⟩
  | 86 => ⟨S100000, .f32⟩
  | 87 => ⟨S100000, .i1⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S1300000, .i32⟩
  | 95 => ⟨S1300000, .i1⟩
  | 96 => ⟨S_, .i32⟩
  | 97 => ⟨S1300000, .i32⟩
  | 98 => ⟨S1300000, .i32⟩
  | 99 => ⟨S1300000, .i32⟩
  | 100 => ⟨S1300000x1, .i32⟩
  | 101 => ⟨S1300000, .f32⟩
  | 102 => ⟨S_, .i32⟩
  | 103 => ⟨S1300000, .i32⟩
  | 104 => ⟨S1300000, .i1⟩
  | 105 => ⟨S_, .i32⟩
  | 106 => ⟨S1300000, .i32⟩
  | 107 => ⟨S1300000, .i32⟩
  | 108 => ⟨S1300000, .i32⟩
  | 109 => ⟨S1300000x1, .i32⟩
  | 110 => ⟨S1300000, .f32⟩
  | 111 => ⟨S1300000, .f32⟩
  | 112 => ⟨S_, .i32⟩
  | 113 => ⟨S1300000, .i32⟩
  | 114 => ⟨S1300000, .i1⟩
  | 115 => ⟨S_, .i32⟩
  | 116 => ⟨S1300000, .i32⟩
  | 117 => ⟨S1300000, .i32⟩
  | 118 => ⟨S1300000, .i32⟩
  | 119 => ⟨S1300000x1, .i32⟩
  | 120 => ⟨S1300000x1, .f32⟩
  | 121 => ⟨S1300000x1, .f32⟩
  | 122 => ⟨S1300000x1, .f32⟩
  | 123 => ⟨S_, .f32⟩
  | 124 => ⟨S100000x1, .f32⟩
  | 125 => ⟨S1300000x1, .i32⟩
  | 126 => ⟨S100000x1, .f32⟩
  | 127 => ⟨S1x1, .f32⟩
  | _ => ⟨S100000x1, .f32⟩

abbrev hbmTy0_1 (i : Nat) : BufTy := match i % 128 with
  | 0 => ⟨S100000x1, .f32⟩
  | 1 => ⟨S100000x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_15 : Ref sig .tc := ⟨.hbm, 102, rfl⟩
abbrev main_v73 : Ref sig .tc := ⟨.hbm, 103, rfl⟩
abbrev main_v74 : Ref sig .tc := ⟨.hbm, 104, rfl⟩
abbrev main_c_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_17 : Ref sig .tc := ⟨.hbm, 112, rfl⟩
abbrev main_v81 : Ref sig .tc := ⟨.hbm, 113, rfl⟩
abbrev main_v82 : Ref sig .tc := ⟨.hbm, 114, rfl⟩
abbrev main_c_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_19 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x1_S1x64_S100000x64_1_0_0_1_n_n_wf : DotDims.WF S100000x1 S1x64 S100000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x1_S100000x1_1_0_0_1_n_n_wf : DotDims.WF S100000x64 S64x1 S100000x1 [1] [0] [0] [1] [] []
  gather_S100000x1_S1300000x1_S1300000x1_1_0_n_n_0_1_11_wf : GatherDims.WF S100000x1 S1300000x1 S1300000x1 [1] [0] [] [0] [] 1 ![1, 1]
  scatter_S100000x1_S1300000x1_S1300000x1_1_0_0_1_wf : ScatterDims.WF S100000x1 S1300000x1 S1300000x1 [1] [0] [0] 1

variable [Facts₀]

def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1300000x1_S1300000x1_1_0_n_n_0_1_11 : GatherDims S100000x1 S1300000x1 S1300000x1 where
  offsetDims := [1]
  collapsedSliceDims := [0]
  operandBatchingDims := []
  startIndicesBatchingDims := []
  startIndexMap := [0]
  indexVectorDim := 1
  sliceSizes := ![1, 1]
  wf := gather_S100000x1_S1300000x1_S1300000x1_1_0_n_n_0_1_11_wf
def scatter_S100000x1_S1300000x1_S1300000x1_1_0_0_1 : ScatterDims S100000x1 S1300000x1 S1300000x1 where
  updateWindowDims := [1]
  insertedWindowDims := [0]
  scatterDimsToOperandDims := [0]
  indexVectorDim := 1
  wf := scatter_S100000x1_S1300000x1_S1300000x1_1_0_0_1_wf

class Facts : Prop extends Facts₀ where

variable [Facts]
-- ==== Proof.KHost.lean ====
/-
  The kernel program's host operations around its one region, as functions of the arguments.

  The graph part: the source and destination endpoint of each of the 1200000 edges followed by one self loop per node
  (`srcIdx`, `dstIdx`: 1300000 index words); the in-degree `deg` (a segment sum of ones over the destinations), its
  inverse square root where positive and zero elsewhere (`dinv`), and the symmetric weight of each edge,
  `norm e = dinv (src e) · dinv (dst e)`. One round of message passing of a flat per-node array `h` is
  `agg h = segment_sum (h[src] · norm, dst)`. Before the region the program aggregates the input feature, pads the
  100000 sums with 352 zeros and lays them out as one row (`sRow`); after it, it drops the padding of the region's
  row, aggregates again and adds the last bias (`outOf`).
-/
import proofs.«157951_j44976897524569_2_alg».proof.Proof.Gen.KernelIdeal.Frame
import Idealize.ShloMosaic.Lib.StableHlo.Run

set_option maxRecDepth 16384

noncomputable section

namespace Cert.KernelIdeal.HostVal

open Cert.KernelIdeal Cert.KernelIdeal.Gen Idealize.ShloMosaic Idealize.ShloMosaic.TcCoe Idealize.SL.Sem
open Idealize.ShloMosaic.StableHlo Idealize.ShloMosaic.Pipeline

variable {F : FTy → Type} [FloatOps F]

/-- Row `r` of the edge list, then the self loops `0, 1, …, 99999`. -/
def srcIdx (ei : (⟨S2x1200000, .i32⟩ : BufTy).Contents (Elt F)) : (⟨S1300000, .i32⟩ : BufTy).Contents (Elt F) :=
  concatenate S1300000 0 [⟨S1200000, shapeCast S1200000 (extractStridedSlice S1x1200000 ![0, 0] ei slices_S2x1200000_S1x1200000_0_0) shapeCasts_S1x1200000_S1200000⟩, ⟨S100000, iotaInDim S100000 32 0⟩] concatenates_S1200000_S100000_S1300000_d0

def dstIdx (ei : (⟨S2x1200000, .i32⟩ : BufTy).Contents (Elt F)) : (⟨S1300000, .i32⟩ : BufTy).Contents (Elt F) :=
  concatenate S1300000 0 [⟨S1200000, shapeCast S1200000 (extractStridedSlice S1x1200000 ![1, 0] ei slices_S2x1200000_S1x1200000_1_0) shapeCasts_S1x1200000_S1200000⟩, ⟨S100000, iotaInDim S100000 32 0⟩] concatenates_S1200000_S100000_S1300000_d0

/-- The index words as a gather reads them: a negative word moved up by the extent, laid out as a column. -/
def wrapCol (v : (⟨S1300000, .i32⟩ : BufTy).Contents (Elt F)) : (⟨S1300000x1, .i32⟩ : BufTy).Contents (Elt F) :=
  broadcastInDim S1300000x1 ![0] bcast_S1300000_S1300000x1_0
    (select (cmpi .slt v (broadcastInDim S1300000 ![] bcast_S_S1300000 (constantI S_ 32 0#32)))
      (addi v (broadcastInDim S1300000 ![] bcast_S_S1300000 (constantI S_ 32 100000#32))) v)

/-- The index words as a scatter reads them: as they are, laid out as a column. -/
def col (v : (⟨S1300000, .i32⟩ : BufTy).Contents (Elt F)) : (⟨S1300000x1, .i32⟩ : BufTy).Contents (Elt F) :=
  broadcastInDim S1300000x1 ![0] bcast_S1300000_S1300000x1_0 v

def zerosN : (⟨S100000, .f32⟩ : BufTy).Contents (Elt F) :=
  broadcastInDim S100000 ![] bcast_S_S100000 (constant (F := F) S_ .f32 0x00000000#32)

/-- The in-degree, self loop included. -/
def deg (ei : (⟨S2x1200000, .i32⟩ : BufTy).Contents (Elt F)) : (⟨S100000, .f32⟩ : BufTy).Contents (Elt F) :=
  Host.scatterAdd scatter_S100000_S1300000x1_S1300000_n_0_0_1 (zerosN (F := F)) (col (F := F) (dstIdx (F := F) ei))
    (broadcastInDim S1300000 ![] bcast_S_S1300000 (constant (F := F) S_ .f32 0x3F800000#32))

def dinv (ei : (⟨S2x1200000, .i32⟩ : BufTy).Contents (Elt F)) : (⟨S100000, .f32⟩ : BufTy).Contents (Elt F) :=
  select (cmpf (F := F) .ogt (deg (F := F) ei) (zerosN (F := F))) (Host.rsqrt (deg (F := F) ei)) (zerosN (F := F))

def norm (ei : (⟨S2x1200000, .i32⟩ : BufTy).Contents (Elt F)) : (⟨S1300000, .f32⟩ : BufTy).Contents (Elt F) :=
  mulf (Host.gather gather_S100000_S1300000x1_S1300000_n_0_n_n_0_1_1 (dinv (F := F) ei) (wrapCol (F := F) (srcIdx (F := F) ei)))
    (Host.gather gather_S100000_S1300000x1_S1300000_n_0_n_n_0_1_1 (dinv (F := F) ei) (wrapCol (F := F) (dstIdx (F := F) ei)))

/-- One round of message passing of a flat per-node array `h`, given the destination words `Dc` (as the scatter reads
    them), the source words `Sc` (as the gather reads them) and the edge weights `Nv`:
    `segment_sum (h[Sc] · Nv, Dc)`. -/
def aggWith (Dc Sc : (⟨S1300000x1, .i32⟩ : BufTy).Contents (Elt F)) (Nv : (⟨S1300000, .f32⟩ : BufTy).Contents (Elt F))
    (h : (⟨S100000, .f32⟩ : BufTy).Contents (Elt F)) : (⟨S100000, .f32⟩ : BufTy).Contents (Elt F) :=
  Host.scatterAdd scatter_S100000_S1300000x1_S1300000_n_0_0_1 (zerosN (F := F)) Dc
    (mulf (Host.gather gather_S100000_S1300000x1_S1300000_n_0_n_n_0_1_1 h Sc) Nv)

/-- The region's first operand: the aggregated input feature, padded to 100352 and laid out as a row. -/
def sRowWith (Dc Sc : (⟨S1300000x1, .i32⟩ : BufTy).Contents (Elt F)) (Nv : (⟨S1300000, .f32⟩ : BufTy).Contents (Elt F))
    (x : (⟨S100000x1, .f32⟩ : BufTy).Contents (Elt F)) : (⟨S1x100352, .f32⟩ : BufTy).Contents (Elt F) :=
  shapeCast S1x100352 (pad S100352 ![0] ![352] ![0] (aggWith (F := F) Dc Sc Nv (shapeCast S100000 x shapeCasts_S100000x1_S100000))
    (sitofp .f32 (constantI S_ 32 0#32)) pads_S100000_S100352_03520 h_S_) shapeCasts_S100352_S1x100352

/-- What the program returns, from the region's row. -/
def outWith (Dc Sc : (⟨S1300000x1, .i32⟩ : BufTy).Contents (Elt F)) (Nv : (⟨S1300000, .f32⟩ : BufTy).Contents (Elt F))
    (o : (⟨S1x100352, .f32⟩ : BufTy).Contents (Elt F)) (b2 : (⟨S1, .f32⟩ : BufTy).Contents (Elt F)) :
    (⟨S100000x1, .f32⟩ : BufTy).Contents (Elt F) :=
  shapeCast S100000x1 (addf (aggWith (F := F) Dc Sc Nv
      (extractStridedSlice S100000 ![0] (shapeCast S100352 o shapeCasts_S1x100352_S100352) slices_S100352_S100000_0))
    (broadcastInDim S100000 ![0] bcast_S1_S100000_0 b2)) shapeCasts_S100000_S100000x1

/-- The three graph arrays of an edge list. -/
def Dcol (ei : (⟨S2x1200000, .i32⟩ : BufTy).Contents (Elt F)) := col (F := F) (dstIdx (F := F) ei)
def Scol (ei : (⟨S2x1200000, .i32⟩ : BufTy).Contents (Elt F)) := wrapCol (F := F) (srcIdx (F := F) ei)

def sRow (x : (⟨S100000x1, .f32⟩ : BufTy).Contents (Elt F)) (ei : (⟨S2x1200000, .i32⟩ : BufTy).Contents (Elt F)) :
    (⟨S1x100352, .f32⟩ : BufTy).Contents (Elt F) :=
  sRowWith (F := F) (Dcol (F := F) ei) (Scol (F := F) ei) (norm (F := F) ei) x

def outOf (o : (⟨S1x100352, .f32⟩ : BufTy).Contents (Elt F)) (ei : (⟨S2x1200000, .i32⟩ : BufTy).Contents (Elt F))
    (b2 : (⟨S1, .f32⟩ : BufTy).Contents (Elt F)) : (⟨S100000x1, .f32⟩ : BufTy).Contents (Elt F) :=
  outWith (F := F) (Dcol (F := F) ei) (Scol (F := F) ei) (norm (F := F) ei) o b2

variable (m : (ℓ : Loc nD τ sig) → Buf (Elt F) ℓ)

/-! ## What the region finds -/

set_option maxHeartbeats 4000000 in
theorem V_sRow (c : Dev nD) : V m c main_v43
    = sRow (F := F) (m ((c.tc : Thread nD τ).loc main_arg0)) (m ((c.tc : Thread nD τ).loc main_arg1)) := by
  dsimp only [V, V0]
  simp only [hostOps0, hostOps0_1, hostOps0_2, hostOps0_3, hostOps0_4, List.flatten_cons, List.flatten_nil, List.append_nil,
    List.cons_append, List.nil_append]
  after_results_simp
  rfl

set_option maxHeartbeats 4000000 in
theorem V_w1 (c : Dev nD) : V m c main_v44 = shapeCast S64x1 (m ((c.tc : Thread nD τ).loc main_arg2)) shapeCasts_S1x64_S64x1 := by
  dsimp only [V, V0]
  simp only [hostOps0, hostOps0_1, hostOps0_2, hostOps0_3, hostOps0_4, List.flatten_cons, List.flatten_nil, List.append_nil,
    List.cons_append, List.nil_append]
  after_results_simp
  rfl

set_option maxHeartbeats 4000000 in
theorem V_b1 (c : Dev nD) : V m c main_v45 = shapeCast S64x1 (m ((c.tc : Thread nD τ).loc main_arg3)) shapeCasts_S64_S64x1 := by
  dsimp only [V, V0]
  simp only [hostOps0, hostOps0_1, hostOps0_2, hostOps0_3, hostOps0_4, List.flatten_cons, List.flatten_nil, List.append_nil,
    List.cons_append, List.nil_append]
  after_results_simp
  rfl

set_option maxHeartbeats 4000000 in
theorem V_w2 (c : Dev nD) : V m c main_v46 = shapeCast S1x64 (m ((c.tc : Thread nD τ).loc main_arg4)) shapeCasts_S64x1_S1x64 := by
  dsimp only [V, V0]
  simp only [hostOps0, hostOps0_1, hostOps0_2, hostOps0_3, hostOps0_4, List.flatten_cons, List.flatten_nil, List.append_nil,
    List.cons_append, List.nil_append]
  after_results_simp
  rfl

/-! ## What the lines after the region leave -/

set_option maxHeartbeats 4000000 in
theorem V0_src (c : Dev nD) : V0 m c (Proc.devRef .tc main_v5) = srcIdx (F := F) (m ((c.tc : Thread nD τ).loc main_arg1)) := by
  dsimp only [V0]
  simp only [hostOps0, hostOps0_1, hostOps0_2, hostOps0_3, hostOps0_4, List.flatten_cons, List.flatten_nil, List.append_nil,
    List.cons_append, List.nil_append]
  after_results_simp
  rfl

set_option maxHeartbeats 4000000 in
theorem V0_dst (c : Dev nD) : V0 m c (Proc.devRef .tc main_v6) = dstIdx (F := F) (m ((c.tc : Thread nD τ).loc main_arg1)) := by
  dsimp only [V0]
  simp only [hostOps0, hostOps0_1, hostOps0_2, hostOps0_3, hostOps0_4, List.flatten_cons, List.flatten_nil, List.append_nil,
    List.cons_append, List.nil_append]
  after_results_simp
  rfl

set_option maxHeartbeats 4000000 in
theorem V0_norm (c : Dev nD) : V0 m c (Proc.devRef .tc main_v29) = norm (F := F) (m ((c.tc : Thread nD τ).loc main_arg1)) := by
  dsimp only [V0]
  simp only [hostOps0, hostOps0_1, hostOps0_2, hostOps0_3, hostOps0_4, List.flatten_cons, List.flatten_nil, List.append_nil,
    List.cons_append, List.nil_append]
  after_results_simp
  rfl

set_option maxHeartbeats 4000000 in
/-- The program's result: the lines after the region applied to the region's row, the edge list and the last bias. -/
theorem tail_eq (c : Dev nD) :
    Pipeline.afterTail₀ cfgs (dats m) 0 (V0 m) [hostOps1] c main_v63
      = outOf (F := F) ((dats m 0 c).arrAt 4 cfg0.N) (m ((c.tc : Thread nD τ).loc main_arg1)) (m ((c.tc : Thread nD τ).loc main_arg5)) := by
  unfold Pipeline.afterTail₀
  show StableHlo.after hostOps1 _ (Proc.devRef .tc main_v63) = _
  after_results
  have hA : Pipeline.withArrays (cfgs 0).spec c (V0 m c) (fun w => (dats m 0 c).arrAt w (cfgs 0).N) (Proc.devRef .tc main_v47)
      = (dats m 0 c).arrAt 4 cfg0.N := Pipeline.withArrays_arr spec0 launch0.win.arr_inj c _ _ 4
  rw [hA,
    Pipeline.withArrays_of_ne _ c (V0 m c) _ main_v5 (by exact (by decide : ∀ w, Pipeline.arrRef spec0 w ≠ main_v5)),
    Pipeline.withArrays_of_ne _ c (V0 m c) _ main_v6 (by exact (by decide : ∀ w, Pipeline.arrRef spec0 w ≠ main_v6)),
    Pipeline.withArrays_of_ne _ c (V0 m c) _ main_v29 (by exact (by decide : ∀ w, Pipeline.arrRef spec0 w ≠ main_v29)),
    Pipeline.withArrays_of_ne _ c (V0 m c) _ main_arg5 (by exact (by decide : ∀ w, Pipeline.arrRef spec0 w ≠ main_arg5)),
    V0_src, V0_dst, V0_norm, show V0 m c (Proc.devRef .tc main_arg5) = m ((c.tc : Thread nD τ).loc main_arg5) from V_main_arg5 m c]
  rfl

end Cert.KernelIdeal.HostVal

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.MidValue.lean ====
/-
  The fused middle stage, as a function of its operands.

  For one node with aggregated scalar `s`, the stage computes `∑ₖ w2ₖ · max (w1ₖ · s + b1ₖ) 0` over the 64 hidden
  units: the outer product with the first layer's weights, the bias, the rectifier and the contraction with the second
  layer's weights (the two changes of float format are the identity on the extended reals). Node `q` of the
  `[1, 100352]` row is handled by grid point `q / 12544`, whose block is the 12544 consecutive nodes from
  `12544 · (q / 12544)`; the eight blocks tile the row, so after the run the whole row is that function of the operand
  arrays as the region finds them.
-/
import proofs.«157951_j44976897524569_2_alg».proof.Proof.Gen.KernelIdeal.Frame
import proofs.«157951_j44976897524569_2_alg».proof.Proof.LibMatmulPlain
import Idealize.ShloMosaic.Lib.Pipeline.Value
import Idealize.ShloMosaic.Lib.ValueIdx
import Idealize.ShloMosaic.PureOps.Ideal.Laws

set_option maxRecDepth 16384

noncomputable section

namespace Cert.KernelIdeal.Mid

open Cert.KernelIdeal Cert.KernelIdeal.Gen Idealize.ShloMosaic Idealize.ShloMosaic.TcCoe Idealize.ShloMosaic.ValueIdx
open Idealize.SL.Sem Idealize.ShloMosaic.Pipeline

/-- One node through the two dense layers: `∑ₖ w2ₖ · max (w1ₖ · s + b1ₖ) 0`. -/
def node (s : EReal) (w1 b1 : S64x1.Idx → EReal) (w2 : S1x64.Idx → EReal) : EReal :=
  ∑ k : Fin 64, w2 (ix2 0 k) * max (w1 (ix2 k 0) * s + b1 (ix2 k 0)) (Ideal.ofBits .f32 0x00000000#32)

/-- The whole row: every node through `node`. -/
def row (s : S1x100352.Idx → EReal) (w1 b1 : S64x1.Idx → EReal) (w2 : S1x64.Idx → EReal) : S1x100352.Idx → EReal :=
  fun i => node (s i) w1 b1 w2

/-- A column `[64, 1]` repeated across `[64, 12544]` read at `(k, q)` is its row `k`. -/
theorem colAcross (x : S64x1.Idx → EReal) (k : Fin 64) (q : Fin 12544) :
    broadcastTo S64x12544 x broadcasts_S64x1_S64x12544 (ix2 k q) = x (ix2 k 0) :=
  broadcastTo_apply x _ (ix2 k q) (ix2 k 0) (fun a => by
    match a with
    | ⟨0, _⟩ => rfl
    | ⟨1, _⟩ => rfl)

/-- A row `[1, 12544]` repeated down `[64, 12544]` read at `(k, q)` is its entry `q`. -/
theorem rowDown (x : S1x12544.Idx → EReal) (k : Fin 64) (q : Fin 12544) :
    broadcastTo S64x12544 x broadcasts_S1x12544_S64x12544 (ix2 k q) = x (ix2 0 q) :=
  broadcastTo_apply x _ (ix2 k q) (ix2 0 q) (fun a => by
    match a with
    | ⟨0, _⟩ => rfl
    | ⟨1, _⟩ => rfl)

/-- The body's stored value at lane `q`: the node function of the loaded blocks. -/
theorem pay_apply (x0 : Vec Ideal S1x12544 .f32) (x1 x2 : Vec Ideal S64x1 .f32) (x3 : Vec Ideal S1x64 .f32)
    (p : Fin 1) (q : Fin 12544) :
    k0_pay1 (F := Ideal) x0 x1 x2 x3 (ix2 p q) = node (x0 (ix2 p q)) x1 x2 x3 := by
  obtain rfl : p = 0 := Subsingleton.elim _ _
  unfold k0_pay1
  simp only [shapeCast_self]
  refine (Cert.LibMatmulPlain.matmul_zero_apply (M := 1) (K := 64) (N := 12544)
    dot_S1x64_S64x12544_S1x12544_1_0_0_1_n_n_wf none _ _ 0 q).trans ?_
  unfold node
  refine Finset.sum_congr rfl fun k _ => ?_
  show x3 (ix2 0 k) * max (broadcastTo S64x12544 x1 broadcasts_S64x1_S64x12544 (ix2 k q)
      * broadcastTo S64x12544 x0 broadcasts_S1x12544_S64x12544 (ix2 k q)
      + broadcastTo S64x12544 x2 broadcasts_S64x1_S64x12544 (ix2 k q)) (Ideal.ofBits .f32 0x00000000#32) = _
  rw [colAcross x1 k q, colAcross x2 k q, rowDown x0 k q]

/-! ## From the eight blocks to the row -/

variable (m : (ℓ : Loc nD τ sig) → Buf (Elt Ideal) ℓ)

theorem hz : (![0, 0] : Fin 2 → Nat) = fun _ => 0 := funext fun a => by fin_cases a <;> rfl

/-- The index maps over the grid: the aggregated row and the result move one block per point along the node axis, the
    three weight operands stay at their one block. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

set_option maxHeartbeats 1000000 in
/-- What point `t` writes back is block `t` of the row function of the operand arrays as the region finds them: lane
    `q` of the block is node `12544 · t + q`, and the weights' blocks are the whole weight arrays. -/
theorem flushed_eq (c : Dev nD) (t : Fin cfg0.N) :
    (dats (F := Ideal) m 0 c).flushed 4 t = ((cfg0.win 4).blk t).view.read (Elt Ideal)
      (row (V m c main_v43) (V m c main_v44) (V m c main_v45) (V m c main_v46)) := by
  show (cfg0.win 4).cut (grid0.coords t) ((dats m 0 c).after 4 t) = _
  rw [after0_4]
  unfold out0_4
  rw [View.canon_unit_zero hz]
  simp only [View.ld_unit_zero (S := S1x12544) hz, View.ld_unit_zero (S := S64x1) hz, View.ld_unit_zero (S := S1x64) hz]
  obtain ⟨e00, e01, e10, e11, e20, e21, e30, e31, e40, e41⟩ := idx_facts t
  funext j
  obtain ⟨p, q, rfl⟩ : ∃ (p : Fin 1) (q : Fin 12544), j = ix2 p q := ⟨j 0, j 1, eq_ix2 j⟩
  show k0_pay1 (F := Ideal) (iblk m c 0 t) (iblk m c 1 t) (iblk m c 2 t) (iblk m c 3 t) (ix2 p q)
    = row (V m c main_v43) (V m c main_v44) (V m c main_v45) (V m c main_v46) (((cfg0.win 4).blk t).view.emb (ix2 p q))
  rw [pay_apply (iblk m c 0 t) (iblk m c 1 t) (iblk m c 2 t) (iblk m c 3 t) p q]
  unfold row node
  refine Finset.sum_congr rfl fun k _ => ?_
  have i0 : ((cfg0.win 0).blk t).view.emb (ix2 p q) = ((cfg0.win 4).blk t).view.emb (ix2 p q) := by
    funext a; apply Fin.ext
    match a with
    | ⟨0, _⟩ => show win0_0.index t (0 : Fin 2) * 1 + 1 * (p : Nat) = win0_4.index t (0 : Fin 2) * 1 + 1 * (p : Nat); omega
    | ⟨1, _⟩ => show win0_0.index t (1 : Fin 2) * 12544 + 1 * (q : Nat) = win0_4.index t (1 : Fin 2) * 12544 + 1 * (q : Nat); omega
  have i1 : ((cfg0.win 1).blk t).view.emb (ix2 k 0) = (ix2 k 0 : S64x1.Idx) := by
    funext a; apply Fin.ext
    match a with
    | ⟨0, _⟩ => show win0_1.index t (0 : Fin 2) * 64 + 1 * (k : Nat) = (k : Nat); omega
    | ⟨1, _⟩ => show win0_1.index t (1 : Fin 2) * 1 + 1 * 0 = 0; omega
  have i2 : ((cfg0.win 2).blk t).view.emb (ix2 k 0) = (ix2 k 0 : S64x1.Idx) := by
    funext a; apply Fin.ext
    match a with
    | ⟨0, _⟩ => show win0_2.index t (0 : Fin 2) * 64 + 1 * (k : Nat) = (k : Nat); omega
    | ⟨1, _⟩ => show win0_2.index t (1 : Fin 2) * 1 + 1 * 0 = 0; omega
  have i3 : ((cfg0.win 3).blk t).view.emb (ix2 0 k) = (ix2 0 k : S1x64.Idx) := by
    funext a; apply Fin.ext
    match a with
    | ⟨0, _⟩ => show win0_3.index t (0 : Fin 2) * 1 + 1 * 0 = 0; omega
    | ⟨1, _⟩ => show win0_3.index t (1 : Fin 2) * 64 + 1 * (k : Nat) = (k : Nat); omega
  have r0 : iblk m c 0 t (ix2 p q) = V m c main_v43 (((cfg0.win 4).blk t).view.emb (ix2 p q)) := by
    show V m c main_v43 (((cfg0.win 0).blk t).view.emb (ix2 p q)) = _
    rw [i0]
  have r1 : iblk m c 1 t (ix2 k 0) = V m c main_v44 (ix2 k 0) := by
    show V m c main_v44 (((cfg0.win 1).blk t).view.emb (ix2 k 0)) = _
    rw [i1]
  have r2 : iblk m c 2 t (ix2 k 0) = V m c main_v45 (ix2 k 0) := by
    show V m c main_v45 (((cfg0.win 2).blk t).view.emb (ix2 k 0)) = _
    rw [i2]
  have r3 : iblk m c 3 t (ix2 0 k) = V m c main_v46 (ix2 0 k) := by
    show V m c main_v46 (((cfg0.win 3).blk t).view.emb (ix2 0 k)) = _
    rw [i3]
  rw [r0, r1, r2, r3]

/-- An index of the row is in point `t`'s block iff each coordinate is in the block's range on its axis. -/
theorem mem_blk (t : Fin cfg0.N) (i : S1x100352.Idx) :
    i ∈ ((cfg0.win 4).blk t).view.set ↔ ∀ a : Fin 2, win0_4.index t a * S1x12544.size a ≤ (i a).val
      ∧ (i a).val < win0_4.index t a * S1x12544.size a + S1x12544.size a := by
  show i ∈ ((View.whole main_v47).slice (win0_4.rect t)).set ↔ _
  rw [View.set_slice_whole, Rect.mem_set_unit]
  exact Iff.rfl

/-- Node `q` lies in the block of point `q / 12544`. -/
theorem cover (i : S1x100352.Idx) :
    ∃ t : Fin cfg0.N, (cfg0.win 4).flush t = true ∧ i ∈ ((cfg0.win 4).blk t).view.set := by
  have hi0 : (i 0).val < 1 := (i 0).isLt
  have hi1 : (i 1).val < 100352 := (i 1).isLt
  have hN : cfg0.N = 8 := N_0
  have ht : (i 1).val / 12544 < cfg0.N := by rw [hN]; omega
  refine ⟨⟨(i 1).val / 12544, ht⟩, flush0_4 _, ?_⟩
  rw [mem_blk]
  obtain ⟨-, -, -, -, -, -, -, -, e40, e41⟩ := idx_facts ⟨(i 1).val / 12544, ht⟩
  intro a
  match a with
  | ⟨0, _⟩ =>
    show win0_4.index ⟨(i 1).val / 12544, ht⟩ (0 : Fin 2) * 1 ≤ (i 0).val
      ∧ (i 0).val < win0_4.index ⟨(i 1).val / 12544, ht⟩ (0 : Fin 2) * 1 + 1
    omega
  | ⟨1, _⟩ =>
    show win0_4.index ⟨(i 1).val / 12544, ht⟩ (1 : Fin 2) * 12544 ≤ (i 1).val
      ∧ (i 1).val < win0_4.index ⟨(i 1).val / 12544, ht⟩ (1 : Fin 2) * 12544 + 12544
    have e : win0_4.index ⟨(i 1).val / 12544, ht⟩ (1 : Fin 2) = (i 1).val / 12544 := e41
    omega

/-- THE ROW after the run: every node through the two dense layers, of the operand arrays as the region finds them. -/
theorem final (c : Dev nD) : (dats (F := Ideal) m 0 c).arrAt 4 cfg0.N
    = row (V m c main_v43) (V m c main_v44) (V m c main_v45) (V m c main_v46) :=
  (dats m 0 c).arrAt_eq_of_cover 4 _ (fun t _ => flushed_eq m c t) cover

end Cert.KernelIdeal.Mid

end
-- ==== Proof.LibScatterRows.lean ====
/-
  Scatters read at an index.

  A scatter walks the update indices in row-major order; each update lands on one element of the operand (or on
  none, when its start index falls outside) and is combined there with what the element holds. When the
  combination is the addition of a commutative monoid the order of the walk does not matter: every element ends
  at its initial value plus the sum of the updates that land on it.
-/
import Idealize.ShloMosaic.PureOps.Ideal
import Idealize.ShloMosaic.Lib.ValueIdx

noncomputable section

namespace Idealize.ShloMosaic.ScatterRows

open Idealize.ShloMosaic Idealize.ShloMosaic.ValueIdx

variable {α : Type} [AddCommMonoid α]

/-- One step of the walk, started from any contents `r`: after the updates of the list `l`, element `i` holds
    `r i` plus the sum, over the list, of the updates landing on `i`. -/
theorem foldl_scatter_apply {s si u : Shape} {w : Nat} (d : ScatterDims s si u) (idx : IVec si w) (upd : u.Idx → α)
    (l : List (Fin u.numel)) (r : s.Idx → α) (i : s.Idx) :
    (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
  induction l generalizing r with
  | nil => simp
  | cons n l ih =>
    rw [List.foldl_cons, ih, List.map_cons, List.sum_cons]
    cases h : d.resultIdx? (u.rowMajor.symm n) idx with
    | none => simp
    | some i0 =>
      by_cases hi : i = i0
      · subst hi
        simp [add_assoc]
      · have hne : ¬ (some i0 = some i) := fun h' => hi (Option.some.inj h').symm
        simp [hi, hne]

/-- A scatter whose combination is the addition of a commutative monoid, read at `i`: the operand's element plus
    the sum of the updates that land on it. -/
theorem scatter_add_apply {s si u : Shape} {w : Nat} (d : ScatterDims s si u) (f : α → α → α) (hf : ∀ a b, f a b = a + b)
    (x : s.Idx → α) (idx : IVec si w) (upd : u.Idx → α) (i : s.Idx) :
    Host.scatter d f x idx upd i = x i + ∑ j : u.Idx, if d.resultIdx? j idx = some i then upd j else 0 := by
  obtain rfl : f = (· + ·) := funext fun a => funext fun b => hf a b
  refine (foldl_scatter_apply d idx upd (List.finRange u.numel) x i).trans ?_
  rw [← Fin.sum_univ_def]
  congr 1
  exact Equiv.sum_comp u.rowMajor.symm (fun j => if d.resultIdx? j idx = some i then upd j else 0)

/-! ## Counting: scalar updates scattered into a flat array

`x.at[idx].add(v)` for a flat array `x : [N]`, indices `idx : [E]` (as `[E, 1]`) and updates `v : [E]`: update `e`
lands on element `idx e`, read as a signed integer, when that is inside `[0, N)`, and is dropped otherwise. -/

section Count

/-- Those dimension numbers. -/
abbrev countDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem countDims_start (j : (⟨1, ![E]⟩ : Shape).Idx) (idx : IVec ⟨2, ![E, 1]⟩ w) (a : Fin 1) :
    (countDims N E wf).start j idx a = (idx (ix2 (j 0) 0)).toInt := by
  obtain rfl : a = 0 := Subsingleton.elim _ _
  unfold ScatterDims.start
  rw [dif_pos (show (0 : Fin 1) ∈ (countDims N E wf).scatterDimsToOperandDims from List.mem_singleton.mpr rfl)]
  have hsi : (countDims N E wf).siIdx j ⟨List.idxOf (0 : Fin 1) (countDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem countDims_window (j : (⟨1, ![E]⟩ : Shape).Idx) (a : Fin 1) : (countDims N E wf).window j a = 0 := by
  obtain rfl : a = 0 := Subsingleton.elim _ _
  unfold ScatterDims.window
  rw [dif_neg (fun h => by
    have h' := (List.mem_filter.1 h).2
    simp at h')]

/-- Update `e` lands on element `p` exactly when its index, read signed, is `p`. -/
theorem countDims_resultIdx?_eq_some (j : (⟨1, ![E]⟩ : Shape).Idx) (idx : IVec ⟨2, ![E, 1]⟩ w) (p : Fin N) :
    (countDims N E wf).resultIdx? j idx = some (ix1 p) ↔ (idx (ix2 (j 0) 0)).toInt = (p.val : ℤ) := by
  unfold ScatterDims.resultIdx?
  constructor
  · intro h
    split at h
    · next hc =>
      have hv : ((countDims N E wf).start j idx 0 + (countDims N E wf).window j 0).toNat = p.val :=
        congrArg Fin.val (congrFun (Option.some.inj h) 0)
      have h0 := (hc 0).1
      rw [countDims_start, countDims_window] at hv h0
      omega
    · exact absurd h (by simp)
  · intro h
    have hc : ∀ a, 0 ≤ (countDims N E wf).start j idx a + (countDims N E wf).window j a ∧
        (countDims N E wf).start j idx a + (countDims N E wf).window j a < (⟨1, ![N]⟩ : Shape).size a := by
      intro a
      obtain rfl : a = 0 := Subsingleton.elim _ _
      rw [countDims_start, countDims_window, h]
      have := p.isLt
      constructor
      · omega
      · show (p.val : ℤ) + 0 < (N : ℤ)
        omega
    rw [dif_pos hc]
    congr 1
    funext a
    obtain rfl : a = 0 := Subsingleton.elim _ _
    refine Fin.ext ?_
    show ((countDims N E wf).start j idx 0 + (countDims N E wf).window j 0).toNat = p.val
    rw [countDims_start, countDims_window, h]
    omega

end Count

/-- The flat index set as its one coordinate. -/
def idxEquiv1 {n : Nat} : (⟨1, ![n]⟩ : Shape).Idx ≃ Fin n where
  toFun j := j 0
  invFun e := ix1 e
  left_inv j := (eq_ix1 j).symm
  right_inv _ := rfl

theorem sum_idx1 {M : Type} [AddCommMonoid M] {n : Nat} (f : (⟨1, ![n]⟩ : Shape).Idx → M) :
    ∑ j, f j = ∑ e : Fin n, f (ix1 e) :=
  (Equiv.sum_comp (idxEquiv1 (n := n)).symm f).symm

/-- THE COUNT READ AT `p`: the operand's element plus the sum of the updates whose index, read signed, is `p`. -/
theorem count_scatter_apply {N E w : Nat} (wf : ScatterDims.WF ⟨1, ![N]⟩ ⟨2, ![E, 1]⟩ ⟨1, ![E]⟩ [] [0] [0] 1)
    (f : α → α → α) (hf : ∀ a b, f a b = a + b) (x : (⟨1, ![N]⟩ : Shape).Idx → α) (idx : IVec ⟨2, ![E, 1]⟩ w)
    (upd : (⟨1, ![E]⟩ : Shape).Idx → α) (p : Fin N) :
    Host.scatter (countDims N E wf) f x idx upd (ix1 p)
      = x (ix1 p) + ∑ e : Fin E, if (idx (ix2 e 0)).toInt = (p.val : ℤ) then upd (ix1 e) else 0 := by
  rw [scatter_add_apply _ f hf, sum_idx1]
  congr 1
  refine Finset.sum_congr rfl fun e _ => ?_
  simp only [countDims_resultIdx?_eq_some]
  rfl

/-! ## Rows: row updates scattered into a matrix

`x.at[idx].add(v)` for a matrix `x : [N, C]`, indices `idx : [E]` (as `[E, 1]`) and updates `v : [E, C]`: row `e`
of the updates lands on row `idx e`, read as a signed integer, when that is inside `[0, N)`, and is dropped
otherwise; columns go to columns. -/

section Rows

/-- Those dimension numbers. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rowsDims_start0 (j : (⟨2, ![E, C]⟩ : Shape).Idx) (idx : IVec ⟨2, ![E, 1]⟩ w) :
    (rowsDims N E C wf).start j idx 0 = (idx (ix2 (j 0) 0)).toInt := by
  unfold ScatterDims.start
  rw [dif_pos (show (0 : Fin 2) ∈ (rowsDims N E C wf).scatterDimsToOperandDims from List.mem_singleton.mpr rfl)]
  have hsi : (rowsDims N E C wf).siIdx j ⟨List.idxOf (0 : Fin 2) (rowsDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowsDims_start1 (j : (⟨2, ![E, C]⟩ : Shape).Idx) (idx : IVec ⟨2, ![E, 1]⟩ w) :
    (rowsDims N E C wf).start j idx 1 = 0 := by
  unfold ScatterDims.start
  rw [dif_neg (fun h => by simp at h)]

theorem rowsDims_window0 (j : (⟨2, ![E, C]⟩ : Shape).Idx) : (rowsDims N E C wf).window j 0 = 0 := by
  unfold ScatterDims.window
  rw [dif_neg (fun h => by
    have h' := (List.mem_filter.1 h).2
    simp at h')]

theorem rowsDims_window1 (j : (⟨2, ![E, C]⟩ : Shape).Idx) : (rowsDims N E C wf).window j 1 = (j 1).val := by
  unfold ScatterDims.window
  rw [dif_pos (show (1 : Fin 2) ∈ (rowsDims N E C wf).sKept from
    List.mem_filter.2 ⟨List.mem_finRange _, by simp⟩)]
  rfl

/-- Entry `(e, c)` of the updates lands on entry `(p, q)` exactly when row `e`'s index, read signed, is `p` and
    `c = q`. -/
theorem rowsDims_resultIdx?_eq_some (j : (⟨2, ![E, C]⟩ : Shape).Idx) (idx : IVec ⟨2, ![E, 1]⟩ w) (p : Fin N) (q : Fin C) :
    (rowsDims N E C wf).resultIdx? j idx = some (ix2 p q)
      ↔ (idx (ix2 (j 0) 0)).toInt = (p.val : ℤ) ∧ (j 1).val = q.val := by
  unfold ScatterDims.resultIdx?
  constructor
  · intro h
    split at h
    · next hc =>
      have hv0 : ((rowsDims N E C wf).start j idx 0 + (rowsDims N E C wf).window j 0).toNat = p.val :=
        congrArg Fin.val (congrFun (Option.some.inj h) 0)
      have hv1 : ((rowsDims N E C wf).start j idx 1 + (rowsDims N E C wf).window j 1).toNat = q.val :=
        congrArg Fin.val (congrFun (Option.some.inj h) 1)
      have h0 := (hc 0).1
      rw [rowsDims_start0, rowsDims_window0] at hv0 h0
      rw [rowsDims_start1, rowsDims_window1] at hv1
      constructor <;> omega
    · exact absurd h (by simp)
  · rintro ⟨h, hq⟩
    have hc : ∀ a, 0 ≤ (rowsDims N E C wf).start j idx a + (rowsDims N E C wf).window j a ∧
        (rowsDims N E C wf).start j idx a + (rowsDims N E C wf).window j a < (⟨2, ![N, C]⟩ : Shape).size a := by
      intro a
      match a with
      | ⟨0, _⟩ =>
        show 0 ≤ (rowsDims N E C wf).start j idx 0 + (rowsDims N E C wf).window j 0 ∧
          (rowsDims N E C wf).start j idx 0 + (rowsDims N E C wf).window j 0 < (N : ℤ)
        rw [rowsDims_start0, rowsDims_window0, h]
        have := p.isLt
        constructor <;> omega
      | ⟨1, _⟩ =>
        show 0 ≤ (rowsDims N E C wf).start j idx 1 + (rowsDims N E C wf).window j 1 ∧
          (rowsDims N E C wf).start j idx 1 + (rowsDims N E C wf).window j 1 < (C : ℤ)
        rw [rowsDims_start1, rowsDims_window1, hq]
        have := q.isLt
        constructor <;> omega
    rw [dif_pos hc]
    congr 1
    funext a
    refine Fin.ext ?_
    match a with
    | ⟨0, _⟩ =>
      show ((rowsDims N E C wf).start j idx 0 + (rowsDims N E C wf).window j 0).toNat = p.val
      rw [rowsDims_start0, rowsDims_window0, h]
      omega
    | ⟨1, _⟩ =>
      show ((rowsDims N E C wf).start j idx 1 + (rowsDims N E C wf).window j 1).toNat = q.val
      rw [rowsDims_start1, rowsDims_window1, hq]
      omega

/-- THE ACCUMULATED ROWS READ AT `(p, q)`, on the extended reals: the operand's entry plus the sum, over the rows
    `e` of the updates whose index is `p`, of the update's entry `(e, q)`. -/
theorem rows_scatterAdd_apply (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (rowsDims N E C wf) x idx upd (ix2 p q)
      = x (ix2 p q) + ∑ e : Fin E, if (idx (ix2 e 0)).toInt = (p.val : ℤ) then upd (ix2 e q) else 0 := by
  unfold Ideal.hostScatterAdd
  congr 1
  rw [Finset.sum_filter, sum_idx2]
  refine Finset.sum_congr rfl fun e _ => ?_
  simp only [rowsDims_resultIdx?_eq_some]
  by_cases he : (idx (ix2 e 0)).toInt = (p.val : ℤ)
  · have : ∀ c : Fin C, ((idx (ix2 ((ix2 e c : (⟨2, ![E, C]⟩ : Shape).Idx) 0) 0)).toInt = (p.val : ℤ)
        ∧ ((ix2 e c : (⟨2, ![E, C]⟩ : Shape).Idx) 1).val = q.val) ↔ c = q := fun c =>
      ⟨fun h => Fin.ext h.2, fun h => ⟨he, congrArg Fin.val h⟩⟩
    simp only [this, Finset.sum_ite_eq', Finset.mem_univ, if_true, he]
  · have : ∀ c : Fin C, ¬ ((idx (ix2 ((ix2 e c : (⟨2, ![E, C]⟩ : Shape).Idx) 0) 0)).toInt = (p.val : ℤ)
        ∧ ((ix2 e c : (⟨2, ![E, C]⟩ : Shape).Idx) 1).val = q.val) := fun c h => he h.1
    simp only [this, if_false, Finset.sum_const_zero, he]

end Rows

end Idealize.ShloMosaic.ScatterRows

end
-- ==== Proof.LibGatherRows.lean ====
/-
  A row gather read at an index.

  `x[idx]` for a matrix `x : [N, C]` and indices `idx : [E]` (as `[E, 1]`): row `e` of the result is the row of `x`
  at the index `idx e`, read as a signed integer and clamped into `[0, N − 1]`; columns go to columns.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word selects: read signed, clamped into `[0, N − 1]`. -/
def clampRow (N : Nat) (hN : 0 < N) {w : Nat} (v : BitVec w) : Fin N := ⟨min v.toInt.toNat (N - 1), by omega⟩

/-- THE GATHER READ AT `(e, q)`: entry `q` of the row of `x` that index `e` selects. -/
theorem rows_gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowsDims N E C wf) x idx (ix2 e q) = x (ix2 (clampRow N hN (idx (ix2 e 0))) q) := by
  unfold Host.gather
  congr 1
  funext a
  refine Fin.ext ?_
  match a with
  | ⟨0, _⟩ =>
    show (rowsDims N E C wf).start (ix2 e q) idx 0 + (rowsDims N E C wf).batchCoord (ix2 e q) 0
      + (rowsDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e q) ⟨List.idxOf (0 : Fin 2) (rowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C wf).start (ix2 e q) idx 1 + (rowsDims N E C wf).batchCoord (ix2 e q) 1
      + (rowsDims N E C wf).offCoord (ix2 e q) 1 = q.val
    rw [GatherDims.batchCoord_eq_zero _ _ _ List.not_mem_nil]
    have hs : (rowsDims N E C wf).start (ix2 e q) idx 1 = 0 := by
      unfold GatherDims.start
      rw [dif_neg (fun h => by simp at h)]
    have ho : (rowsDims N E C wf).offCoord (ix2 e q) 1 = q.val := by
      unfold GatherDims.offCoord
      rw [dif_pos ((GatherDims.mem_sKept _ _).mpr ⟨by simp, List.not_mem_nil⟩)]
      rfl
    rw [hs, ho]
    omega

end Idealize.ShloMosaic.GatherRows

end
-- ==== Proof.LibFlatSegments.lean ====
/-
  A flat array gathered and scattered by one column of index words, read at an index.

  `x[idx]` for a flat array `x : [N]` and indices `idx : [E]` (as `[E, 1]`): element `e` of the result is the element
  of `x` at the index `idx e`, read as a signed integer and clamped into `[0, N − 1]` — the same clamp a row gather of
  an `[N, C]` matrix applies, so a flat gather and a row gather by one index column select the same positions.
  `x.at[idx].add(v)` for flat `x : [N]`, `v : [E]` on the extended reals: element `p` ends at its initial value plus
  the sum of the updates whose index word, read signed, is `p` — the same landing condition a row scatter uses.
-/
import proofs.«157951_j44976897524569_2_alg».proof.Proof.LibScatterRows
import proofs.«157951_j44976897524569_2_alg».proof.Proof.LibGatherRows

noncomputable section

namespace Cert.LibFlatSegments

open Idealize.ShloMosaic Idealize.ShloMosaic.ValueIdx

variable {α : Type}

/-- The dimension numbers of a flat gather by a column of indices. -/
abbrev flatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the element of `x` that index `e` selects. -/
theorem flat_gather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e) = x (ix1 (GatherRows.clampRow N hN (idx (ix2 e 0)))) := by
  unfold Host.gather
  congr 1
  funext a
  refine Fin.ext ?_
  match a with
  | ⟨0, _⟩ =>
    show (flatDims N E wf).start (ix1 e) idx 0 + (flatDims N E wf).batchCoord (ix1 e) 0
      + (flatDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (flatDims N E wf).startIndexMap from List.mem_singleton.mpr rfl)]
    have hsi : (flatDims N E wf).siIdx (ix1 e) ⟨List.idxOf (0 : Fin 1) (flatDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- THE FLAT SEGMENT SUM READ AT `p`, on the extended reals: the operand's element plus the sum of the updates whose
    index word, read signed, is `p`. -/
theorem flat_scatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (p : Fin N) :
    Ideal.hostScatterAdd (ScatterRows.countDims N E wf) x idx upd (ix1 p)
      = x (ix1 p) + ∑ e : Fin E, if (idx (ix2 e 0)).toInt = (p.val : ℤ) then upd (ix1 e) else 0 := by
  unfold Ideal.hostScatterAdd
  congr 1
  rw [Finset.sum_filter, ScatterRows.sum_idx1]
  refine Finset.sum_congr rfl fun e _ => ?_
  simp only [ScatterRows.countDims_resultIdx?_eq_some]
  rfl

end Cert.LibFlatSegments

end
-- ==== Proof.KRead.lean ====
/-
  The kernel program's host stages read at an index, on the extended reals.

  With `Dc` the destination words, `Sc` the source words and `Nv` the edge weights, one round of message passing of a
  flat array `h` ends at node `p` holding `0 + ∑ₑ [Dc e = p] h (row (Sc e)) · Nv e`, where `row` reads a word signed
  and clamps it into the node range. The row handed to the region holds at node `q < 100000` the aggregated input
  feature; the result at `(p, 0)` is the aggregate of the region's row (its first 100000 lanes) plus the last bias.
-/
import proofs.«157951_j44976897524569_2_alg».proof.Proof.KHost
import proofs.«157951_j44976897524569_2_alg».proof.Proof.LibFlatSegments
import Idealize.ShloMosaic.Lib.Pipeline.Value
import Idealize.ShloMosaic.Lib.ValueIdx
import Idealize.ShloMosaic.PureOps.Ideal.Laws

noncomputable section

namespace Cert.KernelIdeal.HostRead

open Cert.KernelIdeal Cert.KernelIdeal.Gen Cert.KernelIdeal.HostVal Idealize.ShloMosaic Idealize.ShloMosaic.ValueIdx
open Idealize.ShloMosaic.GatherRows (clampRow)

theorem hN : 0 < 100000 := by decide

/-- The program's flat segment sum at node `p`. -/
theorem scatter_apply (x : FVec Ideal S100000 .f32) (idx : IVec S1300000x1 32) (upd : FVec Ideal S1300000 .f32) (p : Fin 100000) :
    Host.scatterAdd scatter_S100000_S1300000x1_S1300000_n_0_0_1 x idx upd (ix1 p)
      = x (ix1 p) + ∑ e : Fin 1300000, if (idx (ix2 e 0)).toInt = (p.val : ℤ) then upd (ix1 e) else 0 :=
  Cert.LibFlatSegments.flat_scatterAdd_apply scatter_S100000_S1300000x1_S1300000_n_0_0_1_wf x idx upd p

/-- The program's flat gather at edge `e`. -/
theorem gather_apply (x : FVec Ideal S100000 .f32) (idx : IVec S1300000x1 32) (e : Fin 1300000) :
    Host.gather gather_S100000_S1300000x1_S1300000_n_0_n_n_0_1_1 x idx (ix1 e)
      = x (ix1 (clampRow 100000 hN (idx (ix2 e 0)))) :=
  Cert.LibFlatSegments.flat_gather_apply hN gather_S100000_S1300000x1_S1300000_n_0_n_n_0_1_1_wf x idx e

theorem zerosN_apply (i : S100000.Idx) : zerosN (F := Ideal) i = 0 := by
  show Ideal.ofBits .f32 0x00000000#32 = 0
  exact Ideal.ofBits_zero_f32

variable (Dc Sc : IVec S1300000x1 32) (Nv : FVec Ideal S1300000 .f32)

/-- ONE ROUND OF MESSAGE PASSING at node `p`. -/
theorem aggWith_apply (h : FVec Ideal S100000 .f32) (p : Fin 100000) :
    aggWith (F := Ideal) Dc Sc Nv h (ix1 p)
      = 0 + ∑ e : Fin 1300000, if (Dc (ix2 e 0)).toInt = (p.val : ℤ)
          then h (ix1 (clampRow 100000 hN (Sc (ix2 e 0)))) * Nv (ix1 e) else 0 := by
  unfold aggWith
  rw [scatter_apply, zerosN_apply]
  refine congrArg (0 + ·) (Finset.sum_congr rfl fun e _ => ?_)
  rw [mulf_apply, gather_apply]

/-- Padding on the right leaves the first 100000 entries. -/
theorem pad_apply (s : FVec Ideal S100000 .f32) (v : FVec Ideal S_ .f32) (q : Fin 100352) (hq : q.val < 100000) :
    pad S100352 ![0] ![352] ![0] s v pads_S100000_S100352_03520 h_S_ (ix1 q) = s (ix1 ⟨q.val, hq⟩) := by
  unfold pad
  split
  · next hin =>
    congr 1
    funext a
    apply Fin.ext
    obtain rfl : a = 0 := Subsingleton.elim _ _
    show (q.val - 0) / (0 + 1) = q.val
    omega
  · next hn =>
    exfalso
    apply hn
    intro a
    obtain rfl : a = 0 := Subsingleton.elim _ _
    show 0 ≤ q.val ∧ (q.val - 0) % (0 + 1) = 0 ∧ (q.val - 0) / (0 + 1) < 100000
    omega

/-- The row handed to the region, at a node below 100000: the aggregated input feature. -/
theorem sRowWith_apply (x : FVec Ideal S100000x1 .f32) (q : Fin 100352) (hq : q.val < 100000) :
    sRowWith (F := Ideal) Dc Sc Nv x (ix2 0 q)
      = aggWith (F := Ideal) Dc Sc Nv (shapeCast S100000 x shapeCasts_S100000x1_S100000) (ix1 ⟨q.val, hq⟩) := by
  unfold sRowWith
  rw [shapeCast_apply _ _ (ix2 0 q) (ix1 q) (by
    rw [Shape.rowMajor_val_one, Shape.rowMajor_val_two]
    show q.val = 0 * 100352 + q.val
    omega)]
  exact pad_apply _ _ q hq

/-- The feature column as a flat array. -/
theorem x_flat (x : FVec Ideal S100000x1 .f32) (r : Fin 100000) :
    shapeCast S100000 x shapeCasts_S100000x1_S100000 (ix1 r) = x (ix2 r 0) :=
  shapeCast_apply _ _ (ix1 r) (ix2 r 0) (by
    rw [Shape.rowMajor_val_one, Shape.rowMajor_val_two]
    show r.val * 1 + 0 = r.val
    omega)

/-- The region's row with its padding dropped, as a flat array. -/
theorem slice_flat (o : FVec Ideal S1x100352 .f32) (r : Fin 100000) :
    extractStridedSlice S100000 ![0] (shapeCast S100352 o shapeCasts_S1x100352_S100352) slices_S100352_S100000_0 (ix1 r)
      = o (ix2 0 ⟨r.val, by have := r.isLt; omega⟩) := by
  rw [extractStridedSlice_apply _ _ _ (ix1 r) (ix1 ⟨r.val, by have := r.isLt; omega⟩) (fun a => by
    obtain rfl : a = 0 := Subsingleton.elim _ _
    show r.val = 0 + r.val
    omega)]
  exact shapeCast_apply _ _ _ (ix2 0 ⟨r.val, by have := r.isLt; omega⟩) (by
    rw [Shape.rowMajor_val_one, Shape.rowMajor_val_two]
    show 0 * 100352 + r.val = r.val
    omega)

/-- THE RESULT at `(p, 0)`: the second round's aggregate plus the last bias. -/
theorem outWith_apply (o : FVec Ideal S1x100352 .f32) (b2 : FVec Ideal S1 .f32) (p : Fin 100000) (u : Fin 1) :
    outWith (F := Ideal) Dc Sc Nv o b2 (ix2 p u)
      = aggWith (F := Ideal) Dc Sc Nv
          (extractStridedSlice S100000 ![0] (shapeCast S100352 o shapeCasts_S1x100352_S100352) slices_S100352_S100000_0) (ix1 p)
        + b2 (ix1 0) := by
  obtain rfl : u = 0 := Subsingleton.elim _ _
  unfold outWith
  rw [shapeCast_apply _ _ (ix2 p 0) (ix1 p) (by
    rw [Shape.rowMajor_val_one, Shape.rowMajor_val_two]
    show p.val = p.val * 1 + 0
    omega)]
  rw [addf_apply]
  congr 1
  exact broadcastInDim_apply _ _ b2 (ix1 p) (ix1 0) (fun a => by
    obtain rfl : a = 0 := Subsingleton.elim _ _
    rfl)

/-! ## The weights as the region reads them -/

/-- The first layer's weights `[1, 64]` laid out as a column `[64, 1]`. -/
theorem w1col_apply (x2 : FVec Ideal S1x64 .f32) (k : Fin 64) :
    shapeCast S64x1 x2 shapeCasts_S1x64_S64x1 (ix2 k 0) = x2 (ix2 0 k) :=
  shapeCast_apply _ _ (ix2 k 0) (ix2 0 k) (by
    rw [Shape.rowMajor_val_two, Shape.rowMajor_val_two]
    show 0 * 64 + k.val = k.val * 1 + 0
    omega)

/-- The first bias `[64]` laid out as a column `[64, 1]`. -/
theorem b1col_apply (x3 : FVec Ideal S64 .f32) (k : Fin 64) :
    shapeCast S64x1 x3 shapeCasts_S64_S64x1 (ix2 k 0) = x3 (ix1 k) :=
  shapeCast_apply _ _ (ix2 k 0) (ix1 k) (by
    rw [Shape.rowMajor_val_one, Shape.rowMajor_val_two]
    show k.val = k.val * 1 + 0
    omega)

/-- The second layer's weights `[64, 1]` laid out as a row `[1, 64]`. -/
theorem w2row_apply (x4 : FVec Ideal S64x1 .f32) (k : Fin 64) :
    shapeCast S1x64 x4 shapeCasts_S64x1_S1x64 (ix2 0 k) = x4 (ix2 k 0) :=
  shapeCast_apply _ _ (ix2 0 k) (ix2 k 0) (by
    rw [Shape.rowMajor_val_two, Shape.rowMajor_val_two]
    show k.val * 1 + 0 = 0 * 64 + k.val
    omega)

end Cert.KernelIdeal.HostRead

end
-- ==== Proof.RRead.lean ====
/-
  The reference program's stages read at an index, on the extended reals.

  Two graph convolutions. The first: every node's feature times the first layer's weights (`x ⊗ W1`, one term per
  entry since the feature has one column), the messages `(x ⊗ W1)[src] · norm` summed at their destinations, the bias,
  the rectifier. The second: the 64 hidden values contracted with the second layer's weights, the messages summed at
  their destinations, the last bias. Each sum over the edges landing on a node is
  `0 + ∑ₑ [dst e = p] (…)(row (src e)) · norm e`, where `row` reads an index word signed and clamps it into the node range.
-/
import proofs.«157951_j44976897524569_2_alg».proof.Proof.RefRead
import proofs.«157951_j44976897524569_2_alg».proof.Proof.LibScatterRows
import proofs.«157951_j44976897524569_2_alg».proof.Proof.LibGatherRows

noncomputable section

namespace Cert.ReferenceIdeal.HostRead

open Cert.ReferenceIdeal Cert.ReferenceIdeal.Gen Cert.ReferenceIdeal.ReadP Idealize.ShloMosaic Idealize.ShloMosaic.ValueIdx
open Idealize.ShloMosaic.GatherRows (clampRow)

theorem hN : 0 < 100000 := by decide

/-! ## The program's gathers and scatters -/

theorem rgather64_apply (x : FVec Ideal S100000x64 .f32) (idx : IVec S1300000x1 32) (e : Fin 1300000) (k : Fin 64) :
    Host.gather gather_S100000x64_S1300000x1_S1300000x64_1_0_n_n_0_1_164 x idx (ix2 e k)
      = x (ix2 (clampRow 100000 hN (idx (ix2 e 0))) k) :=
  GatherRows.rows_gather_apply hN gather_S100000x64_S1300000x1_S1300000x64_1_0_n_n_0_1_164_wf x idx e k

theorem rgather1_apply (x : FVec Ideal S100000x1 .f32) (idx : IVec S1300000x1 32) (e : Fin 1300000) (k : Fin 1) :
    Host.gather gather_S100000x1_S1300000x1_S1300000x1_1_0_n_n_0_1_11 x idx (ix2 e k)
      = x (ix2 (clampRow 100000 hN (idx (ix2 e 0))) k) :=
  GatherRows.rows_gather_apply hN gather_S100000x1_S1300000x1_S1300000x1_1_0_n_n_0_1_11_wf x idx e k

theorem rscatter64_apply (x : FVec Ideal S100000x64 .f32) (idx : IVec S1300000x1 32) (upd : FVec Ideal S1300000x64 .f32)
    (p : Fin 100000) (q : Fin 64) :
    Host.scatterAdd scatter_S100000x64_S1300000x1_S1300000x64_1_0_0_1 x idx upd (ix2 p q)
      = x (ix2 p q) + ∑ e : Fin 1300000, if (idx (ix2 e 0)).toInt = (p.val : ℤ) then upd (ix2 e q) else 0 :=
  ScatterRows.rows_scatterAdd_apply scatter_S100000x64_S1300000x1_S1300000x64_1_0_0_1_wf x idx upd p q

theorem rscatter1_apply (x : FVec Ideal S100000x1 .f32) (idx : IVec S1300000x1 32) (upd : FVec Ideal S1300000x1 .f32)
    (p : Fin 100000) (q : Fin 1) :
    Host.scatterAdd scatter_S100000x1_S1300000x1_S1300000x1_1_0_0_1 x idx upd (ix2 p q)
      = x (ix2 p q) + ∑ e : Fin 1300000, if (idx (ix2 e 0)).toInt = (p.val : ℤ) then upd (ix2 e q) else 0 :=
  ScatterRows.rows_scatterAdd_apply scatter_S100000x1_S1300000x1_S1300000x1_1_0_0_1_wf x idx upd p q

/-! ## The first convolution -/

variable (x0 : FVec Ideal S100000x1 .f32) (x1 : IVec S2x1200000 32) (x2 : FVec Ideal S1x64 .f32) (x3 : FVec Ideal S64 .f32)
  (x4 : FVec Ideal S64x1 .f32) (x5 : FVec Ideal S1 .f32)

/-- `x ⊗ W1` at `(r, k)`: the one product. -/
theorem v0_at (r : Fin 100000) (k : Fin 64) :
    val_main_v0 (F := Ideal) x0 x2 (ix2 r k) = x0 (ix2 r 0) * x2 (ix2 0 k) := by
  rw [val_main_v0_apply, Fin.sum_univ_one]
  have hl : lidx_main_v0 (ix2 r k) 0 = ix2 r 0 := funext fun a => Fin.ext (by
    match a with
    | ⟨0, _⟩ => rfl
    | ⟨1, _⟩ => rfl)
  have hr : ridx_main_v0 (ix2 r k) 0 = ix2 0 k := funext fun a => Fin.ext (by
    match a with
    | ⟨0, _⟩ => rfl
    | ⟨1, _⟩ => rfl)
  rw [hl, hr]

/-- The first aggregation at `(r, k)`. -/
theorem v44_at (r : Fin 100000) (k : Fin 64) :
    val_main_v44 (F := Ideal) x0 x1 x2 (ix2 r k)
      = 0 + ∑ e : Fin 1300000, if (val_main_v43 (F := Ideal) x1 (ix2 e 0)).toInt = (r.val : ℤ)
          then (x0 (ix2 (clampRow 100000 hN (val_main_v37 (F := Ideal) x1 (ix2 e 0))) 0) * x2 (ix2 0 k))
            * val_main_v31 (F := Ideal) x1 (ix1 e) else 0 := by
  unfold val_main_v44
  rw [rscatter64_apply]
  rw [show val_main_v42 (F := Ideal) (ix2 r k) = 0 from Ideal.ofBits_zero_f32]
  refine congrArg (0 + ·) (Finset.sum_congr rfl fun e _ => ?_)
  rw [val_main_v41_apply, Ideal.mulf_def]
  unfold val_main_v38
  rw [rgather64_apply, v0_at, val_main_v40_apply, val_main_v39_apply]
  have hi : idx_main_v39 (idx_main_v40 (ix2 e k)) = ix1 e := funext fun a => Fin.ext (by
    match a with
    | ⟨0, _⟩ => rfl)
  rw [hi]

/-- After the bias and the rectifier, at `(r, k)`. -/
theorem v48_at (r : Fin 100000) (k : Fin 64) :
    val_main_v48 (F := Ideal) x0 x1 x2 x3 (ix2 r k)
      = max (val_main_v44 (F := Ideal) x0 x1 x2 (ix2 r k) + x3 (ix1 k)) (Ideal.ofBits .f32 0x00000000#32) := by
  rw [val_main_v48_apply, Ideal.maximumf_def, val_main_v47_apply, Ideal.addf_def, val_main_v46_apply, val_main_v45_apply]
  have hi : idx_main_v45 (idx_main_v46 (ix2 r k)) = ix1 k := funext fun a => Fin.ext (by
    match a with
    | ⟨0, _⟩ => rfl)
  rw [hi]
  rfl

/-! ## The second convolution -/

/-- The hidden values contracted with the second layer's weights, at node `r`. -/
theorem v49_at (r : Fin 100000) (u : Fin 1) :
    val_main_v49 (F := Ideal) x0 x1 x2 x3 x4 (ix2 r u)
      = ∑ k : Fin 64, val_main_v48 (F := Ideal) x0 x1 x2 x3 (ix2 r k) * x4 (ix2 k 0) := by
  obtain rfl : u = 0 := Subsingleton.elim _ _
  rw [val_main_v49_apply]
  refine Finset.sum_congr rfl fun k _ => ?_
  have hl : lidx_main_v49 (ix2 r 0) k = ix2 r k := funext fun a => Fin.ext (by
    match a with
    | ⟨0, _⟩ => rfl
    | ⟨1, _⟩ => rfl)
  have hr : ridx_main_v49 (ix2 r 0) k = ix2 k 0 := funext fun a => Fin.ext (by
    match a with
    | ⟨0, _⟩ => rfl
    | ⟨1, _⟩ => rfl)
  rw [hl, hr]

/-- The second aggregation at `(p, 0)`. -/
theorem v92_at (p : Fin 100000) :
    val_main_v92 (F := Ideal) x0 x1 x2 x3 x4 (ix2 p 0)
      = 0 + ∑ e : Fin 1300000, if (val_main_v91 (F := Ideal) x1 (ix2 e 0)).toInt = (p.val : ℤ)
          then val_main_v49 (F := Ideal) x0 x1 x2 x3 x4 (ix2 (clampRow 100000 hN (val_main_v86 (F := Ideal) x1 (ix2 e 0))) 0)
            * val_main_v80 (F := Ideal) x1 (ix1 e) else 0 := by
  unfold val_main_v92
  rw [rscatter1_apply]
  rw [show val_main_v90 (F := Ideal) (ix2 p 0) = 0 from Ideal.ofBits_zero_f32]
  refine congrArg (0 + ·) (Finset.sum_congr rfl fun e _ => ?_)
  rw [val_main_v89_apply, Ideal.mulf_def]
  unfold val_main_v87
  rw [rgather1_apply, val_main_v88_apply]
  have hi : idx_main_v88 (ix2 e 0) = ix1 e := funext fun a => Fin.ext (by
    match a with
    | ⟨0, _⟩ => rfl)
  rw [hi]

/-- THE RESULT at `(p, 0)`. -/
theorem v95_at (p : Fin 100000) :
    val_main_v95 (F := Ideal) x0 x1 x2 x3 x4 x5 (ix2 p 0)
      = val_main_v92 (F := Ideal) x0 x1 x2 x3 x4 (ix2 p 0) + x5 (ix1 0) := by
  rw [val_main_v95_apply, Ideal.addf_def, val_main_v94_apply, val_main_v93_apply]
  have hi : idx_main_v93 (idx_main_v94 (ix2 p 0)) = ix1 0 := funext fun a => Fin.ext (by
    match a with
    | ⟨0, _⟩ => rfl)
  rw [hi]

end Cert.ReferenceIdeal.HostRead

end
-- ==== Proof.Algebra.lean ====
/-
  The one algebraic law between the two programs.

  The reference multiplies every edge's feature by the first layer's weight and then sums the weighted messages landing
  on a node; the kernel sums the messages first and multiplies the sum by the weight once. On the extended reals a
  factor moves through a sum only when nothing is infinite, so the law is stated for real factors:
      w · (0 + ∑ₑ [P e] xₑ · nₑ)  =  0 + ∑ₑ [P e] (xₑ · w) · nₑ .
-/
import Idealize.ShloMosaic.PureOps.Ideal

noncomputable section

namespace Cert.GcnAlgebra

/-- The coercion of the reals into the extended reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real weight moves through a masked sum of real products. -/
theorem pull_weight {ι : Type} [Fintype ι] (P : ι → Prop) [DecidablePred P] (w : ℝ) (xs ns : ι → ℝ) :
    (w : EReal) * (0 + ∑ e, if P e then (xs e : EReal) * (ns e : EReal) else 0)
      = 0 + ∑ e, if P e then ((xs e : EReal) * (w : EReal)) * (ns e : EReal) else 0 := by
  have hl : ∀ e, (if P e then (xs e : EReal) * (ns e : EReal) else 0) = ((if P e then xs e * ns e else 0 : ℝ) : EReal) :=
    fun e => by split_ifs <;> simp [EReal.coe_mul]
  have hr : ∀ e, (if P e then ((xs e : EReal) * (w : EReal)) * (ns e : EReal) else 0)
      = ((if P e then xs e * w * ns e else 0 : ℝ) : EReal) :=
    fun e => by split_ifs <;> simp [EReal.coe_mul]
  simp only [hl, hr, zero_add]
  rw [← coe_sum, ← coe_sum, ← EReal.coe_mul]
  congr 1
  rw [Finset.mul_sum]
  refine Finset.sum_congr rfl fun e _ => ?_
  split_ifs <;> ring

end Cert.GcnAlgebra

end
-- ==== Proof.Bridge.lean ====
/-
  The two programs compute one function.

  Both end at `(p, 0)` holding `(0 + ∑ₑ [dst e = p] h (row (src e)) · norm e) + b2`, where `h` is the per-node value
  after the two dense layers; the destination words, the source words and the edge weights are the same arrays in both
  programs. What differs is `h`: the reference aggregates `(x ⊗ W1)[src] · norm` and then applies bias, rectifier and
  the second layer's weights; the kernel aggregates the scalar `x[src] · norm`, then multiplies by `W1`. The two agree
  because a weight moves through the edge sum when every factor is a real number: the features and the weights by the
  precondition, and the edge weights because `norm e` is a product of two values each of which is `0` or the inverse
  square root of a positive degree (which is real, and `0` should the degree be `+∞`).
-/
import proofs.«157951_j44976897524569_2_alg».proof.Proof.KRead
import proofs.«157951_j44976897524569_2_alg».proof.Proof.MidValue
import proofs.«157951_j44976897524569_2_alg».proof.Proof.RRead
import proofs.«157951_j44976897524569_2_alg».proof.Proof.Algebra

noncomputable section

namespace Cert.Bridge

open Idealize.ShloMosaic Idealize.ShloMosaic.ValueIdx
open Idealize.ShloMosaic.GatherRows (clampRow)
open Cert.KernelIdeal (S100000 S100000x1 S2x1200000 S1x64 S64 S64x1 S1 S1300000 S1300000x1 S100352 S1x100352)

variable [Cert.KernelIdeal.Facts] [Cert.ReferenceIdeal.Facts]

/-! ## The graph arrays are the same in both programs -/

section Shared
variable (x1 : IVec S2x1200000 32)

theorem dst43 : Cert.ReferenceIdeal.ReadP.val_main_v43 (F := Ideal) x1 = Cert.KernelIdeal.HostVal.Dcol (F := Ideal) x1 := rfl
theorem dst91 : Cert.ReferenceIdeal.ReadP.val_main_v91 (F := Ideal) x1 = Cert.KernelIdeal.HostVal.Dcol (F := Ideal) x1 := rfl
theorem src37 : Cert.ReferenceIdeal.ReadP.val_main_v37 (F := Ideal) x1 = Cert.KernelIdeal.HostVal.Scol (F := Ideal) x1 := rfl
theorem src86 : Cert.ReferenceIdeal.ReadP.val_main_v86 (F := Ideal) x1 = Cert.KernelIdeal.HostVal.Scol (F := Ideal) x1 := rfl
theorem nrm31 : Cert.ReferenceIdeal.ReadP.val_main_v31 (F := Ideal) x1 = Cert.KernelIdeal.HostVal.norm (F := Ideal) x1 := rfl
theorem nrm80 : Cert.ReferenceIdeal.ReadP.val_main_v80 (F := Ideal) x1 = Cert.KernelIdeal.HostVal.norm (F := Ideal) x1 := rfl

end Shared

/-! ## The edge weights are real -/

/-- The inverse square root of a positive extended real is a real (`0` at `+∞`). -/
theorem rsqrt_real (d : EReal) (h : 0 < d) : ∃ r : ℝ, Ideal.rsqrt d = (r : EReal) := by
  induction d using EReal.rec
  · exact absurd h (by simp)
  · next r =>
    have hr : 0 < r := by exact_mod_cast h
    refine ⟨(Real.sqrt r)⁻¹, ?_⟩
    show (if r < 0 then (⊥ : EReal) else if r = 0 then ⊤ else (((Real.sqrt r)⁻¹ : ℝ) : EReal)) = _
    rw [if_neg (not_lt.mpr hr.le), if_neg hr.ne']
  · exact ⟨0, by rw [EReal.coe_zero]; rfl⟩

/-- The comparison bit of `x > y` is set exactly when `y < x`. -/
theorem cmp_ogt_iff (x y : EReal) : Ideal.cmp .ogt x y = 1#1 ↔ y < x := by
  unfold Ideal.cmp
  by_cases h : y < x <;> simp [h]

open Cert.KernelIdeal.HostVal Cert.KernelIdeal.HostRead in
/-- `where (d > 0, rsqrt d, 0)` is real at every entry, whatever `d`. -/
theorem dinvOf_real (d : FVec Ideal S100000 .f32) (i : S100000.Idx) :
    ∃ r : ℝ, select (cmpf (F := Ideal) .ogt d (zerosN (F := Ideal))) (Host.rsqrt d) (zerosN (F := Ideal)) i = (r : EReal) := by
  rw [select_apply]
  by_cases hc : cmpf (F := Ideal) .ogt d (zerosN (F := Ideal)) i = 1#1
  · have hlt : zerosN (F := Ideal) i < d i := (cmp_ogt_iff (d i) (zerosN (F := Ideal) i)).mp hc
    rw [hc, select_one]
    rw [zerosN_apply] at hlt
    exact rsqrt_real _ hlt
  · rw [eq_zero_of_ne_one hc, select_zero, zerosN_apply]
    exact ⟨0, EReal.coe_zero.symm⟩

open Cert.KernelIdeal.HostVal Cert.KernelIdeal.HostRead in
/-- Every edge weight is a real number. -/
theorem norm_real (x1 : IVec S2x1200000 32) (e : Fin 1300000) :
    ∃ r : ℝ, Cert.KernelIdeal.HostVal.norm (F := Ideal) x1 (ix1 e) = (r : EReal) := by
  unfold Cert.KernelIdeal.HostVal.norm
  rw [mulf_apply, gather_apply, gather_apply]
  unfold dinv
  obtain ⟨a, ha⟩ := dinvOf_real (deg (F := Ideal) x1) (ix1 (clampRow 100000 hN (wrapCol (F := Ideal) (srcIdx (F := Ideal) x1) (ix2 e 0))))
  obtain ⟨b, hb⟩ := dinvOf_real (deg (F := Ideal) x1) (ix1 (clampRow 100000 hN (wrapCol (F := Ideal) (dstIdx (F := Ideal) x1) (ix2 e 0))))
  exact ⟨a * b, by rw [ha, hb, EReal.coe_mul]⟩

/-! ## One node -/

section Node
variable (x0 : FVec Ideal S100000x1 .f32) (x1 : IVec S2x1200000 32) (x2 : FVec Ideal S1x64 .f32) (x3 : FVec Ideal S64 .f32)
  (x4 : FVec Ideal S64x1 .f32)

open Cert.KernelIdeal Cert.KernelIdeal.HostVal in
/-- The kernel's row at node `r` is the reference's hidden layer contracted with the second layer's weights. -/
theorem node_eq (hx : ∀ i, ∃ r : ℝ, x0 i = (r : EReal)) (hw : ∀ i, ∃ r : ℝ, x2 i = (r : EReal)) (r : Fin 100000) :
    extractStridedSlice S100000 ![0] (shapeCast S100352
        (Mid.row (sRow (F := Ideal) x0 x1) (shapeCast S64x1 x2 Facts₀.shapeCasts_S1x64_S64x1)
          (shapeCast S64x1 x3 Facts₀.shapeCasts_S64_S64x1) (shapeCast S1x64 x4 Facts₀.shapeCasts_S64x1_S1x64))
        Facts₀.shapeCasts_S1x100352_S100352) Facts₀.slices_S100352_S100000_0 (ix1 r)
      = Cert.ReferenceIdeal.ReadP.val_main_v49 (F := Ideal) x0 x1 x2 x3 x4 (ix2 r 0) := by
  rw [HostRead.slice_flat]
  show Mid.node (sRow (F := Ideal) x0 x1 (ix2 0 ⟨r.val, _⟩)) _ _ _ = _
  unfold sRow
  rw [HostRead.sRowWith_apply _ _ _ _ ⟨r.val, by have := r.isLt; omega⟩ r.isLt, HostRead.aggWith_apply]
  simp only [HostRead.x_flat]
  rw [Cert.ReferenceIdeal.HostRead.v49_at]
  unfold Mid.node
  refine Finset.sum_congr rfl fun k _ => ?_
  rw [Cert.ReferenceIdeal.HostRead.v48_at, Cert.ReferenceIdeal.HostRead.v44_at, dst43, src37, nrm31,
    HostRead.w1col_apply, HostRead.b1col_apply, HostRead.w2row_apply, mul_comm]
  refine congrArg (· * x4 (ix2 k 0)) (congrArg (max · (Ideal.ofBits .f32 0x00000000#32)) (congrArg (· + x3 (ix1 k)) ?_))
  choose xr hxr using hx
  choose nr hnr using norm_real x1
  obtain ⟨w, hw'⟩ := hw (ix2 0 k)
  simp only [hxr, hnr, hw']
  exact Cert.GcnAlgebra.pull_weight (fun e => (Dcol (F := Ideal) x1 (ix2 e 0)).toInt = (r.val : ℤ)) w
    (fun e => xr (ix2 (clampRow 100000 HostRead.hN (Scol (F := Ideal) x1 (ix2 e 0))) 0)) nr

end Node

/-! ## The whole result -/

open Cert.KernelIdeal Cert.KernelIdeal.HostVal in
/-- The kernel program's result, as a function of the arguments, is the reference's. -/
theorem result_eq (x0 : FVec Ideal S100000x1 .f32) (x1 : IVec S2x1200000 32) (x2 : FVec Ideal S1x64 .f32)
    (x3 : FVec Ideal S64 .f32) (x4 : FVec Ideal S64x1 .f32) (x5 : FVec Ideal S1 .f32)
    (hx : ∀ i, ∃ r : ℝ, x0 i = (r : EReal)) (hw : ∀ i, ∃ r : ℝ, x2 i = (r : EReal)) :
    outOf (F := Ideal) (Mid.row (sRow (F := Ideal) x0 x1) (shapeCast S64x1 x2 Facts₀.shapeCasts_S1x64_S64x1)
        (shapeCast S64x1 x3 Facts₀.shapeCasts_S64_S64x1) (shapeCast S1x64 x4 Facts₀.shapeCasts_S64x1_S1x64)) x1 x5
      = Cert.ReferenceIdeal.ReadP.val_main_v95 (F := Ideal) x0 x1 x2 x3 x4 x5 := by
  funext i
  obtain ⟨p, u, rfl⟩ : ∃ (p : Fin 100000) (u : Fin 1), i = ix2 p u := ⟨i 0, i 1, eq_ix2 i⟩
  obtain rfl : u = 0 := Subsingleton.elim _ _
  rw [Cert.ReferenceIdeal.HostRead.v95_at, Cert.ReferenceIdeal.HostRead.v92_at, dst91, src86, nrm80]
  unfold outOf
  rw [HostRead.outWith_apply, HostRead.aggWith_apply]
  refine congrArg (· + x5 (ix1 0)) (congrArg (0 + ·) (Finset.sum_congr rfl fun e _ => ?_))
  rw [node_eq x0 x1 x2 x3 x4 hx hw]

end Cert.Bridge

end
-- ==== Proof.Finite.lean ====
/-
  From the precondition to real entries.

  The precondition says `|v| < +∞` at every entry of every float input. On the extended reals `|v|` is
  `max v (−v)`, which is `+∞` at both infinities, so each such entry is a real number. The law between the two
  programs needs this of the node features and of the first layer's weights.
-/
import proofs.«157951_j44976897524569_2_alg».proof.Pre_finite_inputs
import Idealize.ShloMosaic.Lib.ReduceAll
import Idealize.ShloMosaic.Lib.Affine
import Idealize.ShloMosaic.Lib.ValueIdx
import Idealize.ShloMosaic.PureOps.Ideal

noncomputable section

namespace Cert.Finite

open Idealize.ShloMosaic Idealize.ShloMosaic.ValueIdx Cert.Pre_finite_inputs

instance : Subsingleton S_.Idx := ⟨fun a b => funext fun d => d.elim0⟩

/-- The word `0x7F800000` is `+∞`. -/
theorem inf_word : Ideal.ofBits .f32 0x7F800000#32 = (⊤ : EReal) := by
  simp [Ideal.ofBits, Ideal.ieee]

/-- An extended real whose absolute value is below `+∞` is a real. -/
theorem real_of_abs_lt (x : EReal) (h : Ideal.cmp .olt (max x (-x)) (Ideal.ofBits .f32 0x7F800000#32) = 1#1) :
    ∃ r : ℝ, x = (r : EReal) := by
  rw [inf_word] at h
  induction x using EReal.rec
  · exact absurd h (by simp [Ideal.cmp])
  · exact ⟨_, rfl⟩
  · exact absurd h (by simp [Ideal.cmp])

variable [Facts]

/-- Under the precondition the node features and the first layer's weights are real at every entry. -/
theorem reals_of_pre (x0 : FVec Ideal S100000x1 .f32) (x1 : IVec S2x1200000 32) (x2 : FVec Ideal S1x64 .f32)
    (x3 : FVec Ideal S64 .f32) (x4 : FVec Ideal S64x1 .f32) (x5 : FVec Ideal S1 .f32)
    (h : fn (F := Ideal) x0 x1 x2 x3 x4 x5 = fun _ => 1#1) :
    (∀ i, ∃ r : ℝ, x0 i = (r : EReal)) ∧ (∀ i, ∃ r : ℝ, x2 i = (r : EReal)) := by
  have e := congrFun h ix0
  unfold fn fn_part1 at e
  simp only [andi, IntOp.andi_eq_one] at e
  obtain ⟨⟨⟨⟨e0, e2⟩, e3⟩, e4⟩, e5⟩ := e
  refine ⟨fun i => ?_, fun i => ?_⟩
  · exact real_of_abs_lt (x0 i) (Host.reduce_andi_all _ _ _ _ ix0 e0 i)
  · exact real_of_abs_lt (x2 i) (Host.reduce_andi_all _ _ _ _ ix0 e2 i)

end Cert.Finite

end
-- ==== Proof.lean ====
/-
  A two-layer graph convolution over 100000 nodes and 1200000 edges (plus one self loop per node), hidden width 64, with
  one input feature and one output per node.

  The reference aggregates the 64-wide messages `(x ⊗ W1)[src] · norm` at their destinations, adds the bias, rectifies,
  contracts with `W2`, aggregates the scalar messages again and adds the last bias. The kernel program uses that the
  first layer has rank one: it aggregates the scalar `x[src] · norm` on the host, and one fused region then computes
  `∑ₖ W2ₖ · max (W1ₖ · s + b1ₖ) 0` for the 100352 padded nodes, eight blocks of 12544; the host aggregates the first
  100000 of them and adds the last bias. On the extended reals the two agree because `W1ₖ` moves through the edge sum
  when the features, the weights and the edge weights are real numbers (Proof/Bridge.lean, Proof/Algebra.lean); the
  degree, the edge weights and the endpoints are the same arrays in both programs.

  The frames of the two kernel programs are the generated ones; the reference's is its run with the result dropped.
  The idealization rewrote nothing, so the preservation claim is trivial.
-/
import proofs.«157951_j44976897524569_2_alg».proof.Defs
import proofs.«157951_j44976897524569_2_alg».proof.Proof.Gen.Kernel
import proofs.«157951_j44976897524569_2_alg».proof.Proof.Gen.Kernel.Skeleton
import proofs.«157951_j44976897524569_2_alg».proof.Proof.Gen.Kernel.Launch
import proofs.«157951_j44976897524569_2_alg».proof.Proof.Gen.Kernel.Points
import proofs.«157951_j44976897524569_2_alg».proof.Proof.Gen.Kernel.Frame
import proofs.«157951_j44976897524569_2_alg».proof.Proof.Gen.KernelIdeal
import proofs.«157951_j44976897524569_2_alg».proof.Proof.Gen.KernelIdeal.Skeleton
import proofs.«157951_j44976897524569_2_alg».proof.Proof.Gen.KernelIdeal.Launch
import proofs.«157951_j44976897524569_2_alg».proof.Proof.Gen.KernelIdeal.Points
import proofs.«157951_j44976897524569_2_alg».proof.Proof.Gen.KernelIdeal.Frame
import proofs.«157951_j44976897524569_2_alg».proof.Proof.Gen.ReferenceIdeal
import proofs.«157951_j44976897524569_2_alg».proof.Proof.Gen.Pre_finite_inputs
import proofs.«157951_j44976897524569_2_alg».proof.Proof.RefRun
import proofs.«157951_j44976897524569_2_alg».proof.Proof.RefRead
import proofs.«157951_j44976897524569_2_alg».proof.Proof.KHost
import proofs.«157951_j44976897524569_2_alg».proof.Proof.MidValue
import proofs.«157951_j44976897524569_2_alg».proof.Proof.Bridge
import proofs.«157951_j44976897524569_2_alg».proof.Proof.Finite
import Idealize.ShloMosaic.Adequacy
import Idealize.ShloMosaic.Init

noncomputable section

namespace Cert.Proof

open Idealize.ShloMosaic Idealize.ShloMosaic.TcCoe Idealize.SL.Sem

/-! ## The kernel program's run, with its result named -/

section KernelRun

open Cert.KernelIdeal Cert.KernelIdeal.Gen Cert.KernelIdeal.HostVal

variable (m : (ℓ : Loc nD τ sig) → Buf (Elt Ideal) ℓ)

/-- The kernel program's result as a function of the arguments: the host's first aggregation, the region's row, the
    host's second aggregation and the last bias. -/
def kernelOut (c : Dev nD) : (⟨S100000x1, .f32⟩ : BufTy).Contents (Elt Ideal) :=
  outOf (F := Ideal)
    (Mid.row (sRow (F := Ideal) (m ((c.tc : Thread nD τ).loc main_arg0)) (m ((c.tc : Thread nD τ).loc main_arg1)))
      (shapeCast S64x1 (m ((c.tc : Thread nD τ).loc main_arg2)) Facts₀.shapeCasts_S1x64_S64x1)
      (shapeCast S64x1 (m ((c.tc : Thread nD τ).loc main_arg3)) Facts₀.shapeCasts_S64_S64x1)
      (shapeCast S1x64 (m ((c.tc : Thread nD τ).loc main_arg4)) Facts₀.shapeCasts_S64x1_S1x64))
    (m ((c.tc : Thread nD τ).loc main_arg1)) (m ((c.tc : Thread nD τ).loc main_arg5))

/-- What the lines after the region leave in the result buffer is that function. -/
theorem tail_value (c : Dev nD) :
    Pipeline.afterTail₀ cfgs (dats (F := Ideal) m) 0 (V0 m) [hostOps1] c main_v63 = kernelOut m c := by
  unfold kernelOut
  rw [tail_eq, Mid.final, V_sRow, V_w1, V_b1, V_w2]

/-- Every weakly fair execution of the kernel program ends with the result at `kernelOut` and the arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v63) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v63 (Pipeline.mem_restRefs_of main_v63 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end KernelRun

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both programs end, the kernel program's result at `kernelOut` and the
    reference's at its last stage of the same arguments; under the precondition the two are one function. -/
theorem algebraic : Cert.algebraic_KernelIdeal_ReferenceIdeal := by
  intro m ρ m' ρ' hpre hagree
  refine ⟨fun c => kernelOut m c, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v95_eq, (hagree c).1, (hagree c).2.1, (hagree c).2.2.1, (hagree c).2.2.2.1,
    (hagree c).2.2.2.2.1, (hagree c).2.2.2.2.2]
  obtain ⟨hx, hw⟩ := Cert.Finite.reals_of_pre _ _ _ _ _ _ (hpre c)
  exact (Cert.Bridge.result_eq _ _ _ _ _ _ hx hw).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
